-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S32x64 : Shape := ⟨2, ![32, 64]⟩
abbrev S64x64 : Shape := ⟨2, ![64, 64]⟩
abbrev S64x16 : Shape := ⟨2, ![64, 16]⟩
abbrev S47x64 : Shape := ⟨2, ![47, 64]⟩
abbrev S64x3 : Shape := ⟨2, ![64, 3]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S47x64 : S_.BroadcastsInDim S47x64 (![] : Fin 0 → Fin S47x64.rank)
  reducesTo_S47x64_S_d0_1 : S47x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x64 .f32) (main_arg8 : FVec F S64x3 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x3 .f32 := Host.absf main_arg8
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  main_v43

def fn_part1 {F : FTy → Type} [FloatOps F] (main_arg4 : FVec F S64x16 .f32) (main_arg5 : FVec F S47x64 .f32) (main_arg6 : FVec F S64x64 .f32) (main_arg7 : FVec F S64x64 .f32) (main_arg8 : FVec F S64x3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S47x64 .f32 := Host.absf main_arg5
  let main_cst_8 : FVec F S_ .f32 := constant S_ .f32 0x7F800000#32
  let main_v25 : FVec F S47x64 .f32 := broadcastInDim S47x64 ![] bcast_S_S47x64 main_cst_8
  let main_v26 : IVec S47x64 1 := cmpf .olt main_v24 main_v25
  let main_c_9 : IVec S_ 1 := constantI S_ 1 1#1
  let main_v27 : IVec S_ 1 := (fun x v => Host.reduce IntOp.andi x v reducesTo_S47x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S1048576x32 .f32) (main_arg1 : FVec F S1048576x32 .f32) (main_arg2 : FVec F S32x64 .f32) (main_arg3 : FVec F S64x64 .f32) (main_arg4 : FVec F S64x16 .f32) (main_arg5 : FVec F S47x64 .f32) (main_arg6 : FVec F S64x64 .f32) (main_arg7 : FVec F S64x64 .f32) (main_arg8 : FVec F S64x3 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S1048576x32 : Shape := ⟨2, ![1048576, 32]⟩
abbrev S32x64 : Shape := ⟨2, ![32, 64]⟩
abbrev S64x64 : Shape := ⟨2, ![64, 64]⟩
abbrev S64x16 : Shape := ⟨2, ![64, 16]⟩
abbrev S47x64 : Shape := ⟨2, ![47, 64]⟩
abbrev S64x3 : Shape := ⟨2, ![64, 3]⟩
abbrev S_ : Shape := ⟨0, ![]⟩
abbrev S1x64 : Shape := ⟨2, ![1, 64]⟩
abbrev S15x64 : Shape := ⟨2, ![15, 64]⟩
abbrev S16x64 : Shape := ⟨2, ![16, 64]⟩
abbrev S4x1048576 : Shape := ⟨2, ![4, 1048576]⟩
abbrev S8192x32 : Shape := ⟨2, ![8192, 32]⟩
abbrev S4x8192 : Shape := ⟨2, ![4, 8192]⟩
abbrev S8192x64 : Shape := ⟨2, ![8192, 64]⟩
abbrev S8192x16 : Shape := ⟨2, ![8192, 16]⟩
abbrev S8192x1 : Shape := ⟨2, ![8192, 1]⟩
abbrev S8192x3 : Shape := ⟨2, ![8192, 3]⟩
abbrev S8192x4 : Shape := ⟨2, ![8192, 4]⟩
abbrev S3x1048576 : Shape := ⟨2, ![3, 1048576]⟩
abbrev S1048576x3 : Shape := ⟨2, ![1048576, 3]⟩
abbrev S1x1048576 : Shape := ⟨2, ![1, 1048576]⟩
abbrev S1048576 : Shape := ⟨1, ![1048576]⟩

abbrev nBuf : Space → Nat
  | .hbm => 27
  | .vmem => 14
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S32x64, .f32⟩
  | .hbm, ⟨3, _⟩ => ⟨S64x64, .f32⟩
  | .hbm, ⟨4, _⟩ => ⟨S64x16, .f32⟩
  | .hbm, ⟨5, _⟩ => ⟨S47x64, .f32⟩
  | .hbm, ⟨6, _⟩ => ⟨S64x64, .f32⟩
  | .hbm, ⟨7, _⟩ => ⟨S64x64, .f32⟩
  | .hbm, ⟨8, _⟩ => ⟨S64x3, .f32⟩
  | .hbm, ⟨9, _⟩ => ⟨S32x64, .bf16⟩
  | .hbm, ⟨10, _⟩ => ⟨S64x64, .bf16⟩
  | .hbm, ⟨11, _⟩ => ⟨S64x16, .bf16⟩
  | .hbm, ⟨12, _⟩ => ⟨S32x64, .f32⟩
  | .hbm, ⟨13, _⟩ => ⟨S32x64, .bf16⟩
  | .hbm, ⟨14, _⟩ => ⟨S_, .f32⟩
  | .hbm, ⟨15, _⟩ => ⟨S1x64, .f32⟩
  | .hbm, ⟨16, _⟩ => ⟨S15x64, .f32⟩
  | .hbm, ⟨17, _⟩ => ⟨S16x64, .f32⟩
  | .hbm, ⟨18, _⟩ => ⟨S16x64, .bf16⟩
  | .hbm, ⟨19, _⟩ => ⟨S64x64, .bf16⟩
  | .hbm, ⟨20, _⟩ => ⟨S64x64, .bf16⟩
  | .hbm, ⟨21, _⟩ => ⟨S64x3, .bf16⟩
  | .hbm, ⟨22, _⟩ => ⟨S4x1048576, .f32⟩
  | .hbm, ⟨23, _⟩ => ⟨S3x1048576, .f32⟩
  | .hbm, ⟨24, _⟩ => ⟨S1048576x3, .f32⟩
  | .hbm, ⟨25, _⟩ => ⟨S1x1048576, .f32⟩
  | .hbm, ⟨26, _⟩ => ⟨S1048576, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S32x64, .bf16⟩
  | .local _ .vmem, ⟨5, _⟩ => ⟨S64x64, .bf16⟩
  | .local _ .vmem, ⟨6, _⟩ => ⟨S64x16, .bf16⟩
  | .local _ .vmem, ⟨7, _⟩ => ⟨S32x64, .bf16⟩
  | .local _ .vmem, ⟨8, _⟩ => ⟨S16x64, .bf16⟩
  | .local _ .vmem, ⟨9, _⟩ => ⟨S64x64, .bf16⟩
  | .local _ .vmem, ⟨10, _⟩ => ⟨S64x64, .bf16⟩
  | .local _ .vmem, ⟨11, _⟩ => ⟨S64x3, .bf16⟩
  | .local _ .vmem, ⟨12, _⟩ => ⟨S4x8192, .f32⟩
  | .local _ .vmem, ⟨13, _⟩ => ⟨S4x8192, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x3 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  slices_S47x64_S32x64_0_0 : S47x64.Slices ![0, 0] S32x64
  bcast_S_S1x64 : S_.BroadcastsInDim S1x64 (![] : Fin 0 → Fin S1x64.rank)
  slices_S47x64_S15x64_32_0 : S47x64.Slices ![32, 0] S15x64
  concatenates_S1x64_S15x64_S16x64_d0 : Shape.Concatenates [S1x64, S15x64] S16x64 0
  inb_S8192x32_S8192x32_0_0 : ∀ a, (![0, 0] : Fin 2 → Nat) a + S8192x32.size a ≤ S8192x32.size a
  h_S8192x32 : 0 < S8192x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S8192x16_o0_0_S8192x1 : S8192x16.Slices ![0, 0] S8192x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  concatenates_S8192x3_S8192x1_S8192x4_d1 : Shape.Concatenates [S8192x3, S8192x1] S8192x4 1
  transposes_S8192x4_p1_0_S4x8192 : S8192x4.Transposes [1, 0] S4x8192
  inb_S4x8192_S4x8192_0_0 : ∀ a, (![0, 0] : Fin 2 → Nat) a + S4x8192.size a ≤ S4x8192.size a
  h_S4x8192 : 0 < S4x8192.numel
  slices_S4x1048576_S3x1048576_0_0 : S4x1048576.Slices ![0, 0] S3x1048576
  transposes_S3x1048576_S1048576x3_1_0 : S3x1048576.Transposes [1, 0] S1048576x3
  slices_S4x1048576_S1x1048576_3_0 : S4x1048576.Slices ![3, 0] S1x1048576
  shapeCasts_S1x1048576_S1048576 : S1x1048576.ShapeCasts S1048576
  dot_S8192x32_S32x64_S8192x64_1_0_0_1_n_n_wf : DotDims.WF S8192x32 S32x64 S8192x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []
  dot_S8192x16_S16x64_S8192x64_1_0_0_1_n_n_wf : DotDims.WF S8192x16 S16x64 S8192x64 [1] [0] [0] [1] [] []
  dot_S8192x64_S64x3_S8192x3_1_0_0_1_n_n_wf : DotDims.WF S8192x64 S64x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S1048576x32.size a
  hwx0_1 : ∀ i : grid0.Coords, EltTy.bits .f32 = 32 ∨ (Rect.block (s := S1048576x32) S8192x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .bf16 = 32 ∨ (Rect.block (s := S64x16) S64x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x64.size a ≤ S16x64.size a
  hwx0_6 : ∀ i : grid0.Coords, EltTy.bits .bf16 = 32 ∨ (Rect.block (s := S16x64) S16x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x3.size a ≤ S64x3.size a
  hwx0_9 : ∀ i : grid0.Coords, EltTy.bits .bf16 = 32 ∨ (Rect.block (s := S64x3) S64x3.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x8192.size a ≤ S4x1048576.size a
  hwx0_10 : ∀ i : grid0.Coords, EltTy.bits .f32 = 32 ∨ (Rect.block (s := S4x1048576) S4x8192.size (cc0_transform_10 i) (hinb0_10 i)).WholeWords (EltTy.packing .f32)

variable [Facts₀]

def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x64_S8192x64_1_0_0_1_n_n : DotDims S8192x16 S16x64 S8192x64 where
  lhsContracting := [1]
  rhsContracting := [0]
  lhsNonContracting := [0]
  rhsNonContracting := [1]
  lhsBatch := []
  rhsBatch := []
  wf := dot_S8192x16_S16x64_S8192x64_1_0_0_1_n_n_wf
def dot_S8192x64_S64x3_S8192x3_1_0_0_1_n_n : DotDims S8192x64 S64x3 S8192x3 where
  lhsContracting := [1]
  rhsContracting := [0]
  lhsNonContracting := [0]
  rhsNonContracting := [1]
  lhsBatch := []
  rhsBatch := []
  wf := dot_S8192x64_S64x3_S8192x3_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S64x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S4x8192.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S32x64 : Shape := ⟨2, ![32, 64]⟩
abbrev S64x64 : Shape := ⟨2, ![64, 64]⟩
abbrev S64x16 : Shape := ⟨2, ![64, 16]⟩
abbrev S47x64 : Shape := ⟨2, ![47, 64]⟩
abbrev S64x3 : Shape := ⟨2, ![64, 3]⟩
abbrev S1048576x64 : Shape := ⟨2, ![1048576, 64]⟩
abbrev S_ : Shape := ⟨0, ![]⟩
abbrev S1048576x16 : Shape := ⟨2, ![1048576, 16]⟩
abbrev S1048576x1 : Shape := ⟨2, ![1048576, 1]⟩
abbrev S1048576 : Shape := ⟨1, ![1048576]⟩
abbrev S1048576x15 : Shape := ⟨2, ![1048576, 15]⟩
abbrev S1048576x47 : Shape := ⟨2, ![1048576, 47]⟩
abbrev S1048576x3 : Shape := ⟨2, ![1048576, 3]⟩

abbrev nBuf : Space → Nat
  | .hbm => 46
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S32x64, .f32⟩
  | .hbm, ⟨3, _⟩ => ⟨S64x64, .f32⟩
  | .hbm, ⟨4, _⟩ => ⟨S64x16, .f32⟩
  | .hbm, ⟨5, _⟩ => ⟨S47x64, .f32⟩
  | .hbm, ⟨6, _⟩ => ⟨S64x64, .f32⟩
  | .hbm, ⟨7, _⟩ => ⟨S64x64, .f32⟩
  | .hbm, ⟨8, _⟩ => ⟨S64x3, .f32⟩
  | .hbm, ⟨9, _⟩ => ⟨S1048576x64, .f32⟩
  | .hbm, ⟨10, _⟩ => ⟨S_, .f32⟩
  | .hbm, ⟨11, _⟩ => ⟨S1048576x64, .f32⟩
  | .hbm, ⟨12, _⟩ => ⟨S1048576x64, .f32⟩
  | .hbm, ⟨13, _⟩ => ⟨S1048576x64, .f32⟩
  | .hbm, ⟨14, _⟩ => ⟨S_, .f32⟩
  | .hbm, ⟨15, _⟩ => ⟨S1048576x64, .f32⟩
  | .hbm, ⟨16, _⟩ => ⟨S1048576x64, .f32⟩
  | .hbm, ⟨17, _⟩ => ⟨S1048576x16, .f32⟩
  | .hbm, ⟨18, _⟩ => ⟨S_, .f32⟩
  | .hbm, ⟨19, _⟩ => ⟨S1048576x16, .f32⟩
  | .hbm, ⟨20, _⟩ => ⟨S1048576x16, .f32⟩
  | .hbm, ⟨21, _⟩ => ⟨S1048576x1, .f32⟩
  | .hbm, ⟨22, _⟩ => ⟨S1048576, .f32⟩
  | .hbm, ⟨23, _⟩ => ⟨S1048576x15, .f32⟩
  | .hbm, ⟨24, _⟩ => ⟨S1048576x47, .f32⟩
  | .hbm, ⟨25, _⟩ => ⟨S1048576x64, .f32⟩
  | .hbm, ⟨26, _⟩ => ⟨S_, .f32⟩
  | .hbm, ⟨27, _⟩ => ⟨S1048576x64, .f32⟩
  | .hbm, ⟨28, _⟩ => ⟨S1048576x64, .f32⟩
  | .hbm, ⟨29, _⟩ => ⟨S1048576x64, .f32⟩
  | .hbm, ⟨30, _⟩ => ⟨S_, .f32⟩
  | .hbm, ⟨31, _⟩ => ⟨S1048576x64, .f32⟩
  | .hbm, ⟨32, _⟩ => ⟨S1048576x64, .f32⟩
  | .hbm, ⟨33, _⟩ => ⟨S1048576x64, .f32⟩
  | .hbm, ⟨34, _⟩ => ⟨S_, .f32⟩
  | .hbm, ⟨35, _⟩ => ⟨S1048576x64, .f32⟩
  | .hbm, ⟨36, _⟩ => ⟨S1048576x64, .f32⟩
  | .hbm, ⟨37, _⟩ => ⟨S1048576x3, .f32⟩
  | .hbm, ⟨38, _⟩ => ⟨S1048576x3, .f32⟩
  | .hbm, ⟨39, _⟩ => ⟨S1048576x3, .f32⟩
  | .hbm, ⟨40, _⟩ => ⟨S_, .f32⟩
  | .hbm, ⟨41, _⟩ => ⟨S1048576x3, .f32⟩
  | .hbm, ⟨42, _⟩ => ⟨S1048576x3, .f32⟩
  | .hbm, ⟨43, _⟩ => ⟨S_, .f32⟩
  | .hbm, ⟨44, _⟩ => ⟨S1048576x3, .f32⟩
  | .hbm, ⟨45, _⟩ => ⟨S1048576x3, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_call1_cst : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_call2_cst : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call3_cst : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_call4_cst : Ref sig .tc := ⟨.hbm, 30, rfl⟩
abbrev main_call4_v0 : Ref sig .tc := ⟨.hbm, 31, rfl⟩
abbrev main_v13 : Ref sig .tc := ⟨.hbm, 32, rfl⟩
abbrev main_v14 : Ref sig .tc := ⟨.hbm, 33, rfl⟩
abbrev main_call5_cst : Ref sig .tc := ⟨.hbm, 34, rfl⟩
abbrev main_call5_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]

class Facts₀ : Prop where
  bcast_S_S1048576x64 : S_.BroadcastsInDim S1048576x64 (![] : Fin 0 → Fin S1048576x64.rank)
  bcast_S_S1048576x16 : S_.BroadcastsInDim S1048576x16 (![] : Fin 0 → Fin S1048576x16.rank)
  slices_S1048576x16_S1048576x1_0_0 : S1048576x16.Slices ![0, 0] S1048576x1
  shapeCasts_S1048576x1_S1048576 : S1048576x1.ShapeCasts S1048576
  slices_S1048576x16_S1048576x15_0_1 : S1048576x16.Slices ![0, 1] S1048576x15
  concatenates_S1048576x32_S1048576x15_S1048576x47_d1 : Shape.Concatenates [S1048576x32, S1048576x15] S1048576x47 1
  bcast_S_S1048576x3 : S_.BroadcastsInDim S1048576x3 (![] : Fin 0 → Fin S1048576x3.rank)
  dot_S1048576x32_S32x64_S1048576x64_1_0_0_1_n_n_wf : DotDims.WF S1048576x32 S32x64 S1048576x64 [1] [0] [0] [1] [] []
  dot_S1048576x64_S64x64_S1048576x64_1_0_0_1_n_n_wf : DotDims.WF S1048576x64 S64x64 S1048576x64 [1] [0] [0] [1] [] []
  dot_S1048576x64_S64x16_S1048576x16_1_0_0_1_n_n_wf : DotDims.WF S1048576x64 S64x16 S1048576x16 [1] [0] [0] [1] [] []
  dot_S1048576x47_S47x64_S1048576x64_1_0_0_1_n_n_wf : DotDims.WF S1048576x47 S47x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x47_S47x64_S1048576x64_1_0_0_1_n_n : DotDims S1048576x47 S47x64 S1048576x64 where
  lhsContracting := [1]
  rhsContracting := [0]
  lhsNonContracting := [0]
  rhsNonContracting := [1]
  lhsBatch := []
  rhsBatch := []
  wf := dot_S1048576x47_S47x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.Spec.lean ====
/-
  The two networks on ONE sample point, over the extended reals.

  A sample point carries an encoding row x (32 numbers) and a direction row d (32 numbers).  The density network is
  three bias-free layers, each followed by max(·, 0):  h = relu(relu(relu(x·Ws0)·Ws1)·Ws2), sixteen numbers; the
  density is h 0 and the other fifteen entries are geometry features.  The colour network's first layer acts on the
  47 numbers (d, h 1, …, h 15); two more layers with max(·, 0), a last layer without, and the logistic function give
  three colours.

  The first colour layer is written twice.  `headCat` contracts the joined row of 47 with the whole 47 × 64 weight.
  `headSplit` adds two contractions: d against the weight's first 32 rows, and all sixteen entries of h against a
  16 × 64 matrix whose row 0 is zero and whose rows 1 … 15 are the weight's rows 32 … 46.  They agree
  (`headSplit_eq_headCat`): the extra term h 0 · 0 vanishes, and a sum over 47 positions is the sum over the first 32
  plus the sum over the last 15.  Nothing here asks the numbers to be finite: x · 0 = 0 for every extended real, and
  regrouping a finite sum only uses that addition is commutative and associative.
-/
import Idealize.ShloMosaic.PureOps.Ideal
import Idealize.ShloMosaic.Lib.ValueIdx

noncomputable section

open scoped BigOperators

namespace Cert.Mlp

open Idealize.ShloMosaic Idealize.ShloMosaic.ValueIdx

/-- A row of `k` extended reals. -/
abbrev Row (k : Nat) : Type := Fin k → EReal
/-- A `k × n` matrix of extended reals, by row and column. -/
abbrev Mat (k n : Nat) : Type := Fin k → Fin n → EReal

/-- A rank-2 array read by row and column. -/
def ofArr {a b : Nat} (A : (⟨2, ![a, b]⟩ : Shape).Idx → EReal) : Mat a b := fun i j => A (ix2 i j)
/-- Row `n` of a rank-2 array. -/
def rowOf {a b : Nat} (A : (⟨2, ![a, b]⟩ : Shape).Idx → EReal) (n : Fin a) : Row b := fun k => A (ix2 n k)

/-- A bias-free layer: the row times the matrix. -/
def lin {k n : Nat} (v : Row k) (W : Mat k n) : Row n := fun c => ∑ j : Fin k, v j * W j c
/-- max(·, 0), entry by entry. -/
def relu {n : Nat} (v : Row n) : Row n := fun c => max (v c) 0

/-- The density network: three layers, max(·, 0) after each. -/
def sigmaNet (Ws0 : Mat 32 64) (Ws1 : Mat 64 64) (Ws2 : Mat 64 16) (x : Row 32) : Row 16 :=
  relu (lin (relu (lin (relu (lin x Ws0)) Ws1)) Ws2)

/-- The colour network after its first contraction `p`: max(·, 0), two layers with max(·, 0), a last layer, the
    logistic function. -/
def colorTail (Wc1 Wc2 : Mat 64 64) (Wc3 : Mat 64 3) (p : Row 64) : Row 3 := fun c =>
  Ideal.logistic (lin (relu (lin (relu (lin (relu p) Wc1)) Wc2)) Wc3 c)

/-- The first 32 rows of a 47-row matrix. -/
def topRows (W : Mat 47 64) : Mat 32 64 := fun j c => W ⟨j.val, by have := j.isLt; omega⟩ c
/-- Sixteen rows: a zero row, then rows 32 … 46 of a 47-row matrix. -/
def zeroThenBottom (W : Mat 47 64) : Mat 16 64 := fun j c =>
  if h : j.val = 0 then 0 else W ⟨31 + j.val, by have := j.isLt; omega⟩ c
/-- The joined row of 47: the direction, then the geometry features h 1 … h 15. -/
def catTail (d : Row 32) (h : Row 16) : Row 47 := fun j =>
  if hj : j.val < 32 then d ⟨j.val, hj⟩ else h ⟨j.val - 31, by have := j.isLt; omega⟩

/-- The first colour contraction as two contractions added. -/
def headSplit (Wa : Mat 32 64) (Wb : Mat 16 64) (d : Row 32) (h : Row 16) : Row 64 := fun c => lin d Wa c + lin h Wb c
/-- The first colour contraction against the joined row. -/
def headCat (Wc0 : Mat 47 64) (d : Row 32) (h : Row 16) : Row 64 := lin (catTail d h) Wc0

/-- The split contraction, with the zero row facing the density entry, is the contraction of the joined row. -/
theorem headSplit_eq_headCat (Wc0 : Mat 47 64) (d : Row 32) (h : Row 16) :
    headSplit (topRows Wc0) (zeroThenBottom Wc0) d h = headCat Wc0 d h := by
  funext c
  unfold headSplit headCat lin
  have e47 : ∑ j : Fin 47, catTail d h j * Wc0 j c
      = ∑ j : Fin 32, catTail d h (Fin.castAdd 15 j) * Wc0 (Fin.castAdd 15 j) c
        + ∑ j : Fin 15, catTail d h (Fin.natAdd 32 j) * Wc0 (Fin.natAdd 32 j) c :=
    Fin.sum_univ_add (fun j : Fin (32 + 15) => catTail d h j * Wc0 j c)
  have e16 : ∑ j : Fin 16, h j * zeroThenBottom Wc0 j c
      = h 0 * zeroThenBottom Wc0 0 c + ∑ j : Fin 15, h j.succ * zeroThenBottom Wc0 j.succ c :=
    Fin.sum_univ_succ (fun j : Fin (15 + 1) => h j * zeroThenBottom Wc0 j c)
  rw [e47, e16]
  have z : h 0 * zeroThenBottom Wc0 0 c = 0 := by
    unfold zeroThenBottom; rw [dif_pos (by rfl)]; exact mul_zero _
  rw [z, zero_add]
  refine congrArg₂ (· + ·) ?_ ?_
  · refine Finset.sum_congr rfl fun j _ => ?_
    unfold catTail topRows
    have hj : (Fin.castAdd 15 j).val < 32 := j.isLt
    rw [dif_pos hj]; rfl
  · refine Finset.sum_congr rfl fun j _ => ?_
    unfold catTail zeroThenBottom
    have hj : ¬ (Fin.natAdd 32 j).val < 32 := by show ¬ (32 + j.val < 32); omega
    have hs : ¬ (j.succ : Fin 16).val = 0 := by show ¬ (j.val + 1 = 0); omega
    rw [dif_neg hj, dif_neg hs]
    have e1 : (⟨(Fin.natAdd 32 j).val - 31, by have := j.isLt; show 32 + j.val - 31 < 16; omega⟩ : Fin 16) = j.succ :=
      Fin.ext (by show 32 + j.val - 31 = j.val + 1; omega)
    have e2 : (⟨31 + (j.succ : Fin 16).val, by have := j.isLt; show 31 + (j.val + 1) < 47; omega⟩ : Fin 47) = Fin.natAdd 32 j :=
      Fin.ext (by show 31 + (j.val + 1) = 32 + j.val; omega)
    rw [e1, e2]

/-- The three colours of one sample point. -/
def colorOut (Ws0 : Mat 32 64) (Ws1 : Mat 64 64) (Ws2 : Mat 64 16) (Wc0 : Mat 47 64) (Wc1 Wc2 : Mat 64 64)
    (Wc3 : Mat 64 3) (x d : Row 32) : Row 3 :=
  colorTail Wc1 Wc2 Wc3 (headCat Wc0 d (sigmaNet Ws0 Ws1 Ws2 x))
/-- The density of one sample point. -/
def sigmaOut (Ws0 : Mat 32 64) (Ws1 : Mat 64 64) (Ws2 : Mat 64 16) (x : Row 32) : EReal := sigmaNet Ws0 Ws1 Ws2 x 0

/-- The colour array, 1048576 × 3, of the argument arrays: row n is the colours of sample point n. -/
def colorArr (X D : (⟨2, ![1048576, 32]⟩ : Shape).Idx → EReal) (Ws0 : (⟨2, ![32, 64]⟩ : Shape).Idx → EReal)
    (Ws1 : (⟨2, ![64, 64]⟩ : Shape).Idx → EReal) (Ws2 : (⟨2, ![64, 16]⟩ : Shape).Idx → EReal)
    (Wc0 : (⟨2, ![47, 64]⟩ : Shape).Idx → EReal) (Wc1 Wc2 : (⟨2, ![64, 64]⟩ : Shape).Idx → EReal)
    (Wc3 : (⟨2, ![64, 3]⟩ : Shape).Idx → EReal) : (⟨2, ![1048576, 3]⟩ : Shape).Idx → EReal := fun j =>
  colorOut (ofArr Ws0) (ofArr Ws1) (ofArr Ws2) (ofArr Wc0) (ofArr Wc1) (ofArr Wc2) (ofArr Wc3)
    (rowOf X ⟨(j 0).val, idx2_lt0 j⟩) (rowOf D ⟨(j 0).val, idx2_lt0 j⟩) ⟨(j 1).val, idx2_lt1 j⟩

/-- The density array, 1048576 long: entry n is the density of sample point n. -/
def sigmaArr (X : (⟨2, ![1048576, 32]⟩ : Shape).Idx → EReal) (Ws0 : (⟨2, ![32, 64]⟩ : Shape).Idx → EReal)
    (Ws1 : (⟨2, ![64, 64]⟩ : Shape).Idx → EReal) (Ws2 : (⟨2, ![64, 16]⟩ : Shape).Idx → EReal) :
    (⟨1, ![1048576]⟩ : Shape).Idx → EReal := fun j =>
  sigmaOut (ofArr Ws0) (ofArr Ws1) (ofArr Ws2) (rowOf X ⟨(j 0).val, (j 0).isLt⟩)

theorem colorArr_ix2 (X D : (⟨2, ![1048576, 32]⟩ : Shape).Idx → EReal) (Ws0 : (⟨2, ![32, 64]⟩ : Shape).Idx → EReal)
    (Ws1 : (⟨2, ![64, 64]⟩ : Shape).Idx → EReal) (Ws2 : (⟨2, ![64, 16]⟩ : Shape).Idx → EReal)
    (Wc0 : (⟨2, ![47, 64]⟩ : Shape).Idx → EReal) (Wc1 Wc2 : (⟨2, ![64, 64]⟩ : Shape).Idx → EReal)
    (Wc3 : (⟨2, ![64, 3]⟩ : Shape).Idx → EReal) (n : Fin 1048576) (c : Fin 3) :
    colorArr X D Ws0 Ws1 Ws2 Wc0 Wc1 Wc2 Wc3 (ix2 n c)
      = colorOut (ofArr Ws0) (ofArr Ws1) (ofArr Ws2) (ofArr Wc0) (ofArr Wc1) (ofArr Wc2) (ofArr Wc3) (rowOf X n) (rowOf D n) c := rfl

theorem sigmaArr_ix1 (X : (⟨2, ![1048576, 32]⟩ : Shape).Idx → EReal) (Ws0 : (⟨2, ![32, 64]⟩ : Shape).Idx → EReal)
    (Ws1 : (⟨2, ![64, 64]⟩ : Shape).Idx → EReal) (Ws2 : (⟨2, ![64, 16]⟩ : Shape).Idx → EReal) (n : Fin 1048576) :
    sigmaArr X Ws0 Ws1 Ws2 (ix1 n) = sigmaOut (ofArr Ws0) (ofArr Ws1) (ofArr Ws2) (rowOf X n) := rfl

end Cert.Mlp

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Body.lean ====
/-
  The kernel body's one stored value, read at an entry.

  The body computes, for the 8192 sample points of a block, the density network's sixteen outputs
  h = relu(relu(relu(x·W0)·W1)·W2), then the colour network's first layer as two products added,
  p = relu(d·W5 + h·W6), then relu(relu(p·W7)·W8)·W9 and the logistic function, and stores the 4 × 8192 block whose rows
  0, 1, 2 are the three colours and whose row 3 is the density h 0, the columns being the sample points.

  At the ideal values every operation is exact, so the reading is by unfolding. A matrix product accumulated into the
  zero splat, read at entry (y, c), is the sum over j of A(y, j) · B(j, c): row y of A contracted with B
  (`layer_apply`). A maximum with the zero splat is max(·, 0) entry by entry (`relu_layer_row`,
  `relu_add_layer_row`). A narrowing format change is the identity, and so is a shape cast of a shape to itself. So each
  layer's output row y is the specification's layer applied to the input's row y, and the layers compose row by row
  (`pay2_row`, `pay4_row`). The stored block is the transpose of the columns [colour 0, colour 1, colour 2, density]
  joined side by side: entry (r, y) of it is entry (y, r) of the joined array, which for r < 3 is colour r of point y
  (`pay1_color`) and for r = 3 is column 0 of h at point y (`pay1_row3`, `pay3_apply`).
-/
import proofs.«180653_j72258529787990_2_alg».proof.Proof.Gen.KernelIdeal.Skeleton
import proofs.«180653_j72258529787990_2_alg».proof.Proof.Spec
import proofs.«180653_j72258529787990_2_alg».proof.Proof.LibPlainProduct
import Idealize.ShloMosaic.Lib.Pipeline.Value
import Idealize.ShloMosaic.Lib.ValueIdx
import Idealize.ShloMosaic.PureOps.Ideal.Laws

noncomputable section

open scoped BigOperators

namespace Cert.Body

open Idealize.ShloMosaic Idealize.ShloMosaic.ValueIdx Cert.KernelIdeal Cert.KernelIdeal.Gen Cert.Mlp Cert.LibPlainProduct

/-! ## One layer, row by row -/

section Layer
variable {M K N : Nat} {φ₁ φ₂ φ₃ φ₄ : FTy}

/-- A narrowing format change keeps every row: it is the identity on extended reals. -/
theorem rowOf_truncf {a b : Nat} {φ ψ : FTy} (A : FVec Ideal ⟨2, ![a, b]⟩ φ) (h : ψ.bits < φ.bits) (y : Fin a) :
    rowOf (truncf ψ A h : FVec Ideal ⟨2, ![a, b]⟩ ψ) y = rowOf A y := rfl

/-- A plain M × K by K × N product into the zero splat, read at entry (y, c): row y of the left operand contracted
    with the right operand, at column c. -/
theorem layer_apply
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂)
    (hB : (⟨2, ![K, N]⟩ : Shape).ShapeCasts ⟨2, ![K, N]⟩) (y : Fin M) (c : Fin N) :
    matmul (plainDims w) none A (shapeCast ⟨2, ![K, N]⟩ B hB)
        (constant (F := Ideal) ⟨2, ![M, N]⟩ .f32 0x00000000#32) (ix2 y c)
      = lin (rowOf A y) (ofArr B) c := by
  rw [shapeCast_self]
  exact matmul_zero_plain_apply w none A B y c

/-- The product followed by the maximum with the zero splat: row y of the result is max(·, 0) of row y of the left
    operand times the matrix. -/
theorem relu_layer_row
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂)
    (hB : (⟨2, ![K, N]⟩ : Shape).ShapeCasts ⟨2, ![K, N]⟩) (y : Fin M) :
    rowOf (maximumf (matmul (plainDims w) none A (shapeCast ⟨2, ![K, N]⟩ B hB)
        (constant (F := Ideal) ⟨2, ![M, N]⟩ .f32 0x00000000#32))
        (broadcast ⟨2, ![M, N]⟩ (Scalar.ofBits (F := Ideal) .f32 0x00000000#32))) y
      = relu (lin (rowOf A y) (ofArr B)) := by
  funext c
  show max (matmul (plainDims w) none A (shapeCast ⟨2, ![K, N]⟩ B hB)
        (constant (F := Ideal) ⟨2, ![M, N]⟩ .f32 0x00000000#32) (ix2 y c))
      (Ideal.ofBits .f32 0x00000000#32) = max (lin (rowOf A y) (ofArr B) c) 0
  rw [layer_apply, Ideal.ofBits_zero_f32]

/-- Two products added, then the maximum with the zero splat: row y of the result is max(·, 0) of the split first
    colour contraction of the two left operands' rows y. -/
theorem relu_add_layer_row
    (w : DotDims.WF ⟨2, ![M, 32]⟩ ⟨2, ![32, 64]⟩ ⟨2, ![M, 64]⟩ [1] [0] [0] [1] [] [])
    (w' : DotDims.WF ⟨2, ![M, 16]⟩ ⟨2, ![16, 64]⟩ ⟨2, ![M, 64]⟩ [1] [0] [0] [1] [] [])
    (A : FVec Ideal ⟨2, ![M, 32]⟩ φ₁) (B : FVec Ideal ⟨2, ![32, 64]⟩ φ₂)
    (A' : FVec Ideal ⟨2, ![M, 16]⟩ φ₃) (B' : FVec Ideal ⟨2, ![16, 64]⟩ φ₄)
    (hB : (⟨2, ![32, 64]⟩ : Shape).ShapeCasts ⟨2, ![32, 64]⟩)
    (hB' : (⟨2, ![16, 64]⟩ : Shape).ShapeCasts ⟨2, ![16, 64]⟩) (y : Fin M) :
    rowOf (maximumf (addf
          (matmul (plainDims w) none A (shapeCast ⟨2, ![32, 64]⟩ B hB) (constant (F := Ideal) ⟨2, ![M, 64]⟩ .f32 0x00000000#32))
          (matmul (plainDims w') none A' (shapeCast ⟨2, ![16, 64]⟩ B' hB') (constant (F := Ideal) ⟨2, ![M, 64]⟩ .f32 0x00000000#32)))
        (broadcast ⟨2, ![M, 64]⟩ (Scalar.ofBits (F := Ideal) .f32 0x00000000#32))) y
      = relu (headSplit (ofArr B) (ofArr B') (rowOf A y) (rowOf A' y)) := by
  funext c
  show max (matmul (plainDims w) none A (shapeCast ⟨2, ![32, 64]⟩ B hB) (constant (F := Ideal) ⟨2, ![M, 64]⟩ .f32 0x00000000#32) (ix2 y c)
        + matmul (plainDims w') none A' (shapeCast ⟨2, ![16, 64]⟩ B' hB') (constant (F := Ideal) ⟨2, ![M, 64]⟩ .f32 0x00000000#32) (ix2 y c))
      (Ideal.ofBits .f32 0x00000000#32) = max (lin (rowOf A y) (ofArr B) c + lin (rowOf A' y) (ofArr B') c) 0
  rw [layer_apply, layer_apply, Ideal.ofBits_zero_f32]

end Layer

/-! ## The density network's sixteen outputs, and the first colour layer -/

/-- Row y of the three-layer value h is the density network of row y of the encoding block. The dimension numbers of
    each product are the plain ones, contracting the left operand's axis 1 with the right operand's axis 0. -/
theorem pay2_row (x0 : FVec Ideal S8192x32 .f32) (w0 : FVec Ideal S32x64 .bf16) (w1 : FVec Ideal S64x64 .bf16)
    (w2 : FVec Ideal S64x16 .bf16) (y : Fin 8192) :
    rowOf (k0_pay2 (F := Ideal) x0 w0 w1 w2) y = sigmaNet (ofArr w0) (ofArr w1) (ofArr w2) (rowOf x0 y) := by
  unfold sigmaNet
  refine (relu_layer_row dot_S8192x64_S64x16_S8192x16_1_0_0_1_n_n_wf _ w2 _ y).trans ?_
  refine congrArg (fun r => relu (lin r (ofArr w2))) ?_
  refine (rowOf_truncf _ _ y).trans ?_
  refine (relu_layer_row dot_S8192x64_S64x64_S8192x64_1_0_0_1_n_n_wf _ w1 _ y).trans ?_
  refine congrArg (fun r => relu (lin r (ofArr w1))) ?_
  refine (rowOf_truncf _ _ y).trans ?_
  refine (relu_layer_row dot_S8192x32_S32x64_S8192x64_1_0_0_1_n_n_wf _ w0 _ y).trans ?_
  rfl

/-- Row y of the first colour layer's value is max(·, 0) of the split contraction of the direction row and the
    density network's sixteen outputs at point y. -/
theorem pay4_row (x0 x1 : FVec Ideal S8192x32 .f32) (w0 : FVec Ideal S32x64 .bf16) (w1 : FVec Ideal S64x64 .bf16)
    (w2 : FVec Ideal S64x16 .bf16) (w5 : FVec Ideal S32x64 .bf16) (w6 : FVec Ideal S16x64 .bf16) (y : Fin 8192) :
    rowOf (k0_pay4 (F := Ideal) x0 w0 w1 w2 x1 w5 w6) y
      = relu (headSplit (ofArr w5) (ofArr w6) (rowOf x1 y) (sigmaNet (ofArr w0) (ofArr w1) (ofArr w2) (rowOf x0 y))) := by
  unfold k0_pay4
  refine (rowOf_truncf _ _ y).trans ?_
  refine (relu_add_layer_row dot_S8192x32_S32x64_S8192x64_1_0_0_1_n_n_wf dot_S8192x16_S16x64_S8192x64_1_0_0_1_n_n_wf
    _ w5 _ w6 _ _ y).trans ?_
  refine congrArg (fun r => relu (headSplit (ofArr w5) (ofArr w6) (rowOf x1 y) r)) ?_
  refine (rowOf_truncf _ _ y).trans ?_
  exact pay2_row x0 w0 w1 w2 y

/-! ## The stored block: the transpose of [colours, density] -/

/-- Row 3 of the stored block at column y is the one-column array's entry (y, 0): the transpose swaps the two
    coordinates, and column 3 of the joined array falls in the second piece, at its column 3 − 3 = 0. -/
theorem pay1_row3 (v19 : FVec Ideal S8192x1 .f32) (v32 : FVec Ideal S8192x64 .bf16) (w7 w8 : FVec Ideal S64x64 .bf16)
    (w9 : FVec Ideal S64x3 .bf16) (y : Fin 8192) :
    k0_pay1 (F := Ideal) v19 v32 w7 w8 w9 (ix2 (3 : Fin 4) y) = v19 (ix2 y (0 : Fin 1)) := by
  unfold k0_pay1
  refine (transpose_apply _ _ _ (ix2 (3 : Fin 4) y) (ix2 y (3 : Fin 4)) ?_).trans ?_
  · intro b
    match b with
    | ⟨0, _⟩ => rfl
    | ⟨1, _⟩ => rfl
  · refine concatenate_pair_apply_right (t := S8192x4) (s₁ := S8192x3) (s₂ := S8192x1) _ _ _ _ _ rfl rfl
      (ix2 y (0 : Fin 1)) ?_ ?_
    · intro b hb
      match b with
      | ⟨0, _⟩ => rfl
      | ⟨1, _⟩ => exact absurd rfl hb
    · rfl

/-- The one-column slice at offsets (0, 0) reads column 0 of h. -/
theorem pay3_apply (x0 : FVec Ideal S8192x32 .f32) (w0 : FVec Ideal S32x64 .bf16) (w1 : FVec Ideal S64x64 .bf16)
    (w2 : FVec Ideal S64x16 .bf16) (y : Fin 8192) :
    k0_pay3 (F := Ideal) x0 w0 w1 w2 (ix2 y (0 : Fin 1)) = k0_pay2 (F := Ideal) x0 w0 w1 w2 (ix2 y (0 : Fin 16)) := by
  unfold k0_pay3
  refine extractStridedSlice_apply _ _ _ (ix2 y (0 : Fin 1)) (ix2 y (0 : Fin 16)) ?_
  intro a
  match a with
  | ⟨0, _⟩ => show y.val = 0 + y.val; omega
  | ⟨1, _⟩ => rfl

/-- Row c < 3 of the stored block at column y: the transpose swaps the coordinates, column c of the joined array falls
    in the first piece, and there the value is the logistic function of the last layer at (y, c), whose input rows
    are the two max(·, 0) layers over row y of the first colour layer's value. -/
theorem pay1_color (v19 : FVec Ideal S8192x1 .f32) (v32 : FVec Ideal S8192x64 .bf16) (w7 w8 : FVec Ideal S64x64 .bf16)
    (w9 : FVec Ideal S64x3 .bf16) (c : Fin 3) (y : Fin 8192) :
    k0_pay1 (F := Ideal) v19 v32 w7 w8 w9 (ix2 (Fin.castSucc c) y)
      = Ideal.logistic (lin (relu (lin (relu (lin (rowOf v32 y) (ofArr w7))) (ofArr w8))) (ofArr w9) c) := by
  unfold k0_pay1
  refine (transpose_apply _ _ _ (ix2 (Fin.castSucc c) y) (ix2 y (Fin.castSucc c)) ?_).trans ?_
  · intro b
    match b with
    | ⟨0, _⟩ => rfl
    | ⟨1, _⟩ => rfl
  · refine (concatenate_pair_apply_left (t := S8192x4) (s₁ := S8192x3) (s₂ := S8192x1) _ _ _ _ _ rfl (ix2 y c) ?_).trans ?_
    · intro b
      match b with
      | ⟨0, _⟩ => rfl
      | ⟨1, _⟩ => rfl
    · refine congrArg Ideal.logistic ?_
      refine (layer_apply dot_S8192x64_S64x3_S8192x3_1_0_0_1_n_n_wf _ w9 _ y c).trans ?_
      refine congrArg (fun r => lin r (ofArr w9) c) ?_
      refine (rowOf_truncf _ _ y).trans ?_
      refine (relu_layer_row dot_S8192x64_S64x64_S8192x64_1_0_0_1_n_n_wf _ w8 _ y).trans ?_
      refine congrArg (fun r => relu (lin r (ofArr w8))) ?_
      refine (rowOf_truncf _ _ y).trans ?_
      exact relu_layer_row dot_S8192x64_S64x64_S8192x64_1_0_0_1_n_n_wf v32 w7 _ y

/-! ## The two readings of the stored block -/

/-- Row 3 of the stored block at column y is the density of row y of the encoding block. -/
theorem pay_sigma (x0 x1 : FVec Ideal S8192x32 .f32) (w0 : FVec Ideal S32x64 .bf16) (w1 : FVec Ideal S64x64 .bf16)
    (w2 : FVec Ideal S64x16 .bf16) (w5 : FVec Ideal S32x64 .bf16) (w6 : FVec Ideal S16x64 .bf16)
    (w7 w8 : FVec Ideal S64x64 .bf16) (w9 : FVec Ideal S64x3 .bf16) (y : Fin 8192) :
    k0_pay1 (F := Ideal) (k0_pay3 x0 w0 w1 w2) (k0_pay4 x0 w0 w1 w2 x1 w5 w6) w7 w8 w9 (ix2 (3 : Fin 4) y)
      = sigmaOut (ofArr w0) (ofArr w1) (ofArr w2) (rowOf x0 y) := by
  refine (pay1_row3 _ _ w7 w8 w9 y).trans ?_
  refine (pay3_apply x0 w0 w1 w2 y).trans ?_
  exact congrFun (pay2_row x0 w0 w1 w2 y) (0 : Fin 16)

/-- Row c < 3 of the stored block at column y is colour c of the colour network after its first contraction, taken as
    the split contraction of row y of the direction block and the density network's outputs at row y of the encoding
    block. -/
theorem pay_color (x0 x1 : FVec Ideal S8192x32 .f32) (w0 : FVec Ideal S32x64 .bf16) (w1 : FVec Ideal S64x64 .bf16)
    (w2 : FVec Ideal S64x16 .bf16) (w5 : FVec Ideal S32x64 .bf16) (w6 : FVec Ideal S16x64 .bf16)
    (w7 w8 : FVec Ideal S64x64 .bf16) (w9 : FVec Ideal S64x3 .bf16) (c : Fin 3) (y : Fin 8192) :
    k0_pay1 (F := Ideal) (k0_pay3 x0 w0 w1 w2) (k0_pay4 x0 w0 w1 w2 x1 w5 w6) w7 w8 w9 (ix2 (Fin.castSucc c) y)
      = colorTail (ofArr w7) (ofArr w8) (ofArr w9)
          (headSplit (ofArr w5) (ofArr w6) (rowOf x1 y) (sigmaNet (ofArr w0) (ofArr w1) (ofArr w2) (rowOf x0 y))) c := by
  refine (pay1_color _ _ w7 w8 w9 c y).trans ?_
  unfold colorTail
  exact congrArg (fun r => Ideal.logistic (lin (relu (lin (relu (lin r (ofArr w7))) (ofArr w8))) (ofArr w9) c))
    (pay4_row x0 x1 w0 w1 w2 w5 w6 y)

end Cert.Body

end
-- ==== Proof.Blocks.lean ====
/-
  From the kernel's blocks to its whole output array.

  The kernel runs on 128 grid points.  Point t loads rows 8192·t … 8192·t + 8191 of the encodings x and of the
  directions d, and every weight whole; it writes a 4 × 8192 block whose column y holds, for sample point
  n = 8192·t + y, the three colours (rows 0, 1, 2) and the density (row 3), into columns 8192·t … of a 4 × 1048576
  array.  The blocks tile that array, so after the run the array is `outArr`: at (r, n) colour r, or the density, of
  sample point n.
-/
import proofs.«180653_j72258529787990_2_alg».proof.Proof.Gen.KernelIdeal.Frame
import proofs.«180653_j72258529787990_2_alg».proof.Proof.Spec
import proofs.«180653_j72258529787990_2_alg».proof.Proof.Body
import Idealize.ShloMosaic.Lib.Pipeline.Value
import Idealize.ShloMosaic.Lib.ValueIdx

noncomputable section

namespace Cert.KValue

open Idealize.ShloMosaic Idealize.ShloMosaic.ValueIdx Idealize.ShloMosaic.TcCoe Idealize.SL.Sem
open Cert.KernelIdeal Cert.KernelIdeal.Gen Cert.Mlp

variable (m : (ℓ : Loc nD τ sig) → Buf (Elt Ideal) ℓ)

/-- The merged 4 × 1048576 array: at (r, n), colour r of sample point n for r < 3, its density for r = 3.  The
    first colour contraction is the split one, over the two weight pieces `Ma` and `Mb`. -/
def outArr (X D : S1048576x32.Idx → EReal) (M0 : Mat 32 64) (M1 : Mat 64 64) (M2 : Mat 64 16) (Ma : Mat 32 64)
    (Mb : Mat 16 64) (M7 M8 : Mat 64 64) (M9 : Mat 64 3) : S4x1048576.Idx → EReal := fun j =>
  if h : (j 0).val < 3 then
    colorTail M7 M8 M9 (headSplit Ma Mb (rowOf D ⟨(j 1).val, idx2_lt1 j⟩) (sigmaNet M0 M1 M2 (rowOf X ⟨(j 1).val, idx2_lt1 j⟩)))
      ⟨(j 0).val, h⟩
  else sigmaOut M0 M1 M2 (rowOf X ⟨(j 1).val, idx2_lt1 j⟩)

theorem outArr_color (X D : S1048576x32.Idx → EReal) (M0 : Mat 32 64) (M1 : Mat 64 64) (M2 : Mat 64 16) (Ma : Mat 32 64)
    (Mb : Mat 16 64) (M7 M8 : Mat 64 64) (M9 : Mat 64 3) (r : Fin 3) (n : Fin 1048576) :
    outArr X D M0 M1 M2 Ma Mb M7 M8 M9 (ix2 (Fin.castSucc r) n)
      = colorTail M7 M8 M9 (headSplit Ma Mb (rowOf D n) (sigmaNet M0 M1 M2 (rowOf X n))) r := by
  unfold outArr
  have h : ((ix2 (Fin.castSucc r) n : S4x1048576.Idx) 0).val < 3 := r.isLt
  rw [dif_pos h]
  rfl

theorem outArr_sigma (X D : S1048576x32.Idx → EReal) (M0 : Mat 32 64) (M1 : Mat 64 64) (M2 : Mat 64 16) (Ma : Mat 32 64)
    (Mb : Mat 16 64) (M7 M8 : Mat 64 64) (M9 : Mat 64 3) (n : Fin 1048576) :
    outArr X D M0 M1 M2 Ma Mb M7 M8 M9 (ix2 (3 : Fin 4) n) = sigmaOut M0 M1 M2 (rowOf X n) := by
  unfold outArr
  have h : ¬ ((ix2 (3 : Fin 4) n : S4x1048576.Idx) 0).val < 3 := by show ¬ (3 < 3); omega
  rw [dif_neg h]

theorem hz : (![0, 0] : Fin 2 → Nat) = fun _ => 0 := funext fun a => by fin_cases a <;> rfl

/-- The printed index maps over the grid: the two row windows and the output move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = t.val :=
  (by decide +kernel : ∀ t : Fin grid0.N, _)

theorem t_lt (t : Fin cfg0.N) : t.val < 128 := lt_of_lt_of_eq t.isLt N_0

/-- Row y of point t's block of x is row 8192·t + y of x. -/
theorem iblk0_apply (c : Dev nD) (t : Fin cfg0.N) (y : Fin 8192) (k : Fin 32) :
    (iblk m c 0 t : S8192x32.Idx → EReal) (ix2 y k)
      = (V m c main_arg0 : S1048576x32.Idx → EReal) (ix2 ⟨t.val * 8192 + y.val, by have := t_lt t; have := y.isLt; omega⟩ k) := by
  show V m c main_arg0 (((cfg0.win 0).blk t).view.emb (ix2 y k)) = _
  have h : ((cfg0.win 0).blk t).view.emb (ix2 y k) = ix2 ⟨t.val * 8192 + y.val, by have := t_lt t; have := y.isLt; omega⟩ k := by
    obtain ⟨e0, e1, -⟩ := idx_facts t
    funext a; apply Fin.ext
    match a with
    | ⟨0, _⟩ => show win0_0.index t (0 : Fin 2) * 8192 + 1 * y.val = t.val * 8192 + y.val; omega
    | ⟨1, _⟩ => show win0_0.index t (1 : Fin 2) * 32 + 1 * k.val = k.val; omega
  rw [h]

/-- Row y of point t's block of d is row 8192·t + y of d. -/
theorem iblk1_apply (c : Dev nD) (t : Fin cfg0.N) (y : Fin 8192) (k : Fin 32) :
    (iblk m c 1 t : S8192x32.Idx → EReal) (ix2 y k)
      = (V m c main_arg1 : S1048576x32.Idx → EReal) (ix2 ⟨t.val * 8192 + y.val, by have := t_lt t; have := y.isLt; omega⟩ k) := by
  show V m c main_arg1 (((cfg0.win 1).blk t).view.emb (ix2 y k)) = _
  have h : ((cfg0.win 1).blk t).view.emb (ix2 y k) = ix2 ⟨t.val * 8192 + y.val, by have := t_lt t; have := y.isLt; omega⟩ k := by
    obtain ⟨-, -, e0, e1, -⟩ := idx_facts t
    funext a; apply Fin.ext
    match a with
    | ⟨0, _⟩ => show win0_1.index t (0 : Fin 2) * 8192 + 1 * y.val = t.val * 8192 + y.val; omega
    | ⟨1, _⟩ => show win0_1.index t (1 : Fin 2) * 32 + 1 * k.val = k.val; omega
  rw [h]

/-- Window 2 is the whole array at every point. -/
theorem iblk2_eq (c : Dev nD) (t : Fin cfg0.N) : (iblk m c 2 t : S32x64.Idx → EReal) = (V m c main_v0 : S32x64.Idx → EReal) := by
  funext i
  show V m c main_v0 (((cfg0.win 2).blk t).view.emb i) = V m c main_v0 i
  have h : ((cfg0.win 2).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_2.index t (0 : Fin 2) * 32 + 1 * (i 0).val = (i 0).val; omega
    | ⟨1, _⟩ => show win0_2.index t (1 : Fin 2) * 64 + 1 * (i 1).val = (i 1).val; omega
  rw [h]

/-- Window 3 is the whole array at every point. -/
theorem iblk3_eq (c : Dev nD) (t : Fin cfg0.N) : (iblk m c 3 t : S64x64.Idx → EReal) = (V m c main_v1 : S64x64.Idx → EReal) := by
  funext i
  show V m c main_v1 (((cfg0.win 3).blk t).view.emb i) = V m c main_v1 i
  have h : ((cfg0.win 3).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_3.index t (0 : Fin 2) * 64 + 1 * (i 0).val = (i 0).val; omega
    | ⟨1, _⟩ => show win0_3.index t (1 : Fin 2) * 64 + 1 * (i 1).val = (i 1).val; omega
  rw [h]

/-- Window 4 is the whole array at every point. -/
theorem iblk4_eq (c : Dev nD) (t : Fin cfg0.N) : (iblk m c 4 t : S64x16.Idx → EReal) = (V m c main_v2 : S64x16.Idx → EReal) := by
  funext i
  show V m c main_v2 (((cfg0.win 4).blk t).view.emb i) = V m c main_v2 i
  have h : ((cfg0.win 4).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_4.index t (0 : Fin 2) * 64 + 1 * (i 0).val = (i 0).val; omega
    | ⟨1, _⟩ => show win0_4.index t (1 : Fin 2) * 16 + 1 * (i 1).val = (i 1).val; omega
  rw [h]

/-- Window 5 is the whole array at every point. -/
theorem iblk5_eq (c : Dev nD) (t : Fin cfg0.N) : (iblk m c 5 t : S32x64.Idx → EReal) = (V m c main_v4 : S32x64.Idx → EReal) := by
  funext i
  show V m c main_v4 (((cfg0.win 5).blk t).view.emb i) = V m c main_v4 i
  have h : ((cfg0.win 5).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_5.index t (0 : Fin 2) * 32 + 1 * (i 0).val = (i 0).val; omega
    | ⟨1, _⟩ => show win0_5.index t (1 : Fin 2) * 64 + 1 * (i 1).val = (i 1).val; omega
  rw [h]

/-- Window 6 is the whole array at every point. -/
theorem iblk6_eq (c : Dev nD) (t : Fin cfg0.N) : (iblk m c 6 t : S16x64.Idx → EReal) = (V m c main_v8 : S16x64.Idx → EReal) := by
  funext i
  show V m c main_v8 (((cfg0.win 6).blk t).view.emb i) = V m c main_v8 i
  have h : ((cfg0.win 6).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_6.index t (0 : Fin 2) * 16 + 1 * (i 0).val = (i 0).val; omega
    | ⟨1, _⟩ => show win0_6.index t (1 : Fin 2) * 64 + 1 * (i 1).val = (i 1).val; omega
  rw [h]

/-- Window 7 is the whole array at every point. -/
theorem iblk7_eq (c : Dev nD) (t : Fin cfg0.N) : (iblk m c 7 t : S64x64.Idx → EReal) = (V m c main_v9 : S64x64.Idx → EReal) := by
  funext i
  show V m c main_v9 (((cfg0.win 7).blk t).view.emb i) = V m c main_v9 i
  have h : ((cfg0.win 7).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_7.index t (0 : Fin 2) * 64 + 1 * (i 0).val = (i 0).val; omega
    | ⟨1, _⟩ => show win0_7.index t (1 : Fin 2) * 64 + 1 * (i 1).val = (i 1).val; omega
  rw [h]

/-- Window 8 is the whole array at every point. -/
theorem iblk8_eq (c : Dev nD) (t : Fin cfg0.N) : (iblk m c 8 t : S64x64.Idx → EReal) = (V m c main_v10 : S64x64.Idx → EReal) := by
  funext i
  show V m c main_v10 (((cfg0.win 8).blk t).view.emb i) = V m c main_v10 i
  have h : ((cfg0.win 8).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_8.index t (0 : Fin 2) * 64 + 1 * (i 0).val = (i 0).val; omega
    | ⟨1, _⟩ => show win0_8.index t (1 : Fin 2) * 64 + 1 * (i 1).val = (i 1).val; omega
  rw [h]

/-- Window 9 is the whole array at every point. -/
theorem iblk9_eq (c : Dev nD) (t : Fin cfg0.N) : (iblk m c 9 t : S64x3.Idx → EReal) = (V m c main_v11 : S64x3.Idx → EReal) := by
  funext i
  show V m c main_v11 (((cfg0.win 9).blk t).view.emb i) = V m c main_v11 i
  have h : ((cfg0.win 9).blk t).view.emb i = i := by
    obtain ⟨a00, a01, a10, a11, a20, a21, a30, a31, a40, a41, a50, a51, a60, a61, a70, a71, a80, a81, a90, a91, b00, b01⟩ := idx_facts t
    funext a; apply Fin.ext
    match a with
    | ⟨0, _⟩ => show win0_9.index t (0 : Fin 2) * 64 + 1 * (i 0).val = (i 0).val; omega
    | ⟨1, _⟩ => show win0_9.index t (1 : Fin 2) * 3 + 1 * (i 1).val = (i 1).val; omega
  rw [h]

/-- Column y of point t's output block is column 8192·t + y of the array. -/
theorem emb10 (t : Fin cfg0.N) (r : Fin 4) (y : Fin 8192) :
    ((cfg0.win 10).blk t).view.emb (ix2 r y) = ix2 r ⟨t.val * 8192 + y.val, by have := t_lt t; have := y.isLt; omega⟩ := by
  obtain ⟨a00, a01, a10, a11, a20, a21, a30, a31, a40, a41, a50, a51, a60, a61, a70, a71, a80, a81, a90, a91, b00, b01⟩ := idx_facts t
  funext a; apply Fin.ext
  match a with
  | ⟨0, _⟩ => show win0_10.index t (0 : Fin 2) * 4 + 1 * r.val = r.val; omega
  | ⟨1, _⟩ => show win0_10.index t (1 : Fin 2) * 8192 + 1 * y.val = t.val * 8192 + y.val; omega

/-- WHAT POINT t WRITES BACK is block t of `outArr` of the arrays as the region finds them. -/
theorem flushed_eq (c : Dev nD) (t : Fin cfg0.N) :
    (dats m 0 c).flushed 10 t = ((cfg0.win 10).blk t).view.read (Elt Ideal)
      (outArr (V m c main_arg0) (V m c main_arg1) (ofArr (V m c main_v0 : S32x64.Idx → EReal)) (ofArr (V m c main_v1 : S64x64.Idx → EReal))
        (ofArr (V m c main_v2 : S64x16.Idx → EReal)) (ofArr (V m c main_v4 : S32x64.Idx → EReal)) (ofArr (V m c main_v8 : S16x64.Idx → EReal))
        (ofArr (V m c main_v9 : S64x64.Idx → EReal)) (ofArr (V m c main_v10 : S64x64.Idx → EReal)) (ofArr (V m c main_v11 : S64x3.Idx → EReal))) := by
  show (cfg0.win 10).cut (grid0.coords t) ((dats m 0 c).after 10 t) = _
  rw [after0_10]
  unfold out0_10
  rw [View.canon_unit_zero hz]
  simp only [View.ld_unit_zero (S := S8192x32) hz, View.ld_unit_zero (S := S32x64) hz, View.ld_unit_zero (S := S64x64) hz,
    View.ld_unit_zero (S := S64x16) hz, View.ld_unit_zero (S := S16x64) hz, View.ld_unit_zero (S := S64x3) hz]
  funext j
  obtain ⟨r, y, rfl⟩ : ∃ (r : Fin 4) (y : Fin 8192), j = ix2 r y := ⟨j 0, j 1, eq_ix2 j⟩
  change _ = outArr _ _ _ _ _ _ _ _ _ _ (((cfg0.win 10).blk t).view.emb (ix2 r y))
  rw [emb10]
  have rows0 : rowOf (iblk m c 0 t : S8192x32.Idx → EReal) y
      = rowOf (V m c main_arg0 : S1048576x32.Idx → EReal) ⟨t.val * 8192 + y.val, by have := t_lt t; have := y.isLt; omega⟩ :=
    funext fun k => iblk0_apply m c t y k
  have rows1 : rowOf (iblk m c 1 t : S8192x32.Idx → EReal) y
      = rowOf (V m c main_arg1 : S1048576x32.Idx → EReal) ⟨t.val * 8192 + y.val, by have := t_lt t; have := y.isLt; omega⟩ :=
    funext fun k => iblk1_apply m c t y k
  by_cases hr : r.val < 3
  · obtain ⟨r', rfl⟩ : ∃ r' : Fin 3, r = Fin.castSucc r' := ⟨⟨r.val, hr⟩, Fin.ext rfl⟩
    rw [outArr_color]
    refine (Cert.Body.pay_color (iblk m c 0 t) (iblk m c 1 t) (iblk m c 2 t) (iblk m c 3 t) (iblk m c 4 t) (iblk m c 5 t)
      (iblk m c 6 t) (iblk m c 7 t) (iblk m c 8 t) (iblk m c 9 t) r' y).trans ?_
    rw [rows0, rows1, iblk2_eq, iblk3_eq, iblk4_eq, iblk5_eq, iblk6_eq, iblk7_eq, iblk8_eq, iblk9_eq]
  · obtain rfl : r = (3 : Fin 4) := Fin.ext (by have := r.isLt; show r.val = 3; omega)
    rw [outArr_sigma]
    refine (Cert.Body.pay_sigma (iblk m c 0 t) (iblk m c 1 t) (iblk m c 2 t) (iblk m c 3 t) (iblk m c 4 t) (iblk m c 5 t)
      (iblk m c 6 t) (iblk m c 7 t) (iblk m c 8 t) (iblk m c 9 t) y).trans ?_
    rw [rows0, iblk2_eq, iblk3_eq, iblk4_eq]

/-- An index of the array is in point t's block iff each coordinate is in the block's range on its axis. -/
theorem mem_blk (t : Fin cfg0.N) (i : S4x1048576.Idx) :
    i ∈ ((cfg0.win 10).blk t).view.set ↔ ∀ a : Fin 2, win0_10.index t a * S4x8192.size a ≤ (i a).val
      ∧ (i a).val < win0_10.index t a * S4x8192.size a + S4x8192.size a := by
  show i ∈ ((View.whole main_v12).slice (win0_10.rect t)).set ↔ _
  rw [View.set_slice_whole, Rect.mem_set_unit]
  exact Iff.rfl

/-- Every index of the array is in some point's block: column n belongs to point n / 8192. -/
theorem cover (i : S4x1048576.Idx) :
    ∃ t : Fin cfg0.N, (cfg0.win 10).flush t = true ∧ i ∈ ((cfg0.win 10).blk t).view.set := by
  have hi0 : (i 0).val < 4 := (i 0).isLt
  have hi1 : (i 1).val < 1048576 := (i 1).isLt
  have hN : cfg0.N = 128 := N_0
  refine ⟨⟨(i 1).val / 8192, by rw [hN]; omega⟩, flush0_10 _, ?_⟩
  rw [mem_blk]
  obtain ⟨a00, a01, a10, a11, a20, a21, a30, a31, a40, a41, a50, a51, a60, a61, a70, a71, a80, a81, a90, a91, b00, b01⟩ := idx_facts ⟨(i 1).val / 8192, by rw [hN]; omega⟩
  intro a
  match a with
  | ⟨0, _⟩ =>
    show win0_10.index ⟨(i 1).val / 8192, _⟩ (0 : Fin 2) * 4 ≤ (i 0).val ∧ (i 0).val < win0_10.index ⟨(i 1).val / 8192, _⟩ (0 : Fin 2) * 4 + 4
    rw [b00]; omega
  | ⟨1, _⟩ =>
    show win0_10.index ⟨(i 1).val / 8192, _⟩ (1 : Fin 2) * 8192 ≤ (i 1).val ∧ (i 1).val < win0_10.index ⟨(i 1).val / 8192, _⟩ (1 : Fin 2) * 8192 + 8192
    rw [b01]; show (i 1).val / 8192 * 8192 ≤ (i 1).val ∧ (i 1).val < (i 1).val / 8192 * 8192 + 8192; omega

/-- THE ARRAY after the run. -/
theorem final (c : Dev nD) : (dats m 0 c).arrAt 10 cfg0.N
    = outArr (V m c main_arg0) (V m c main_arg1) (ofArr (V m c main_v0 : S32x64.Idx → EReal)) (ofArr (V m c main_v1 : S64x64.Idx → EReal))
        (ofArr (V m c main_v2 : S64x16.Idx → EReal)) (ofArr (V m c main_v4 : S32x64.Idx → EReal)) (ofArr (V m c main_v8 : S16x64.Idx → EReal))
        (ofArr (V m c main_v9 : S64x64.Idx → EReal)) (ofArr (V m c main_v10 : S64x64.Idx → EReal)) (ofArr (V m c main_v11 : S64x3.Idx → EReal)) :=
  (dats m 0 c).arrAt_eq_of_cover 10 _ (fun t _ => flushed_eq m c t) cover

end Cert.KValue

end
-- ==== Proof.Prologue.lean ====
/-
  What the region finds in its weight windows.

  Before the kernel is launched the host narrows every weight to bf16 — the identity on extended reals — and builds
  the two pieces of the first colour weight Wc0 (47 × 64): its first 32 rows, and a 16-row matrix made of one zero
  row stacked on its rows 32 … 46.  So, read as matrices, the eight weight windows hold Ws0, Ws1, Ws2,
  `topRows Wc0`, `zeroThenBottom Wc0`, Wc1, Wc2 and Wc3.
-/
import proofs.«180653_j72258529787990_2_alg».proof.Proof.Gen.KernelIdeal.Frame
import proofs.«180653_j72258529787990_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KValue

open Idealize.ShloMosaic Idealize.ShloMosaic.ValueIdx Idealize.ShloMosaic.TcCoe Idealize.SL.Sem
open Cert.KernelIdeal Cert.KernelIdeal.Gen Cert.Mlp

variable (m : (ℓ : Loc nD τ sig) → Buf (Elt Ideal) ℓ)

/-- Narrowing to bf16 changes nothing: the window of Ws0 holds Ws0. -/
theorem V_v0 (c : Dev nD) :
    (V m c main_v0 : S32x64.Idx → EReal) = (m ((c : Thread nD τ).loc main_arg2) : S32x64.Idx → EReal) := by
  show StableHlo.after hostOps0 (fun b => m (c, b)) (Proc.devRef .tc main_v0) = _
  after_results
  rfl

/-- The window of Ws1 holds Ws1. -/
theorem V_v1 (c : Dev nD) :
    (V m c main_v1 : S64x64.Idx → EReal) = (m ((c : Thread nD τ).loc main_arg3) : S64x64.Idx → EReal) := by
  show StableHlo.after hostOps0 (fun b => m (c, b)) (Proc.devRef .tc main_v1) = _
  after_results
  rfl

/-- The window of Ws2 holds Ws2. -/
theorem V_v2 (c : Dev nD) :
    (V m c main_v2 : S64x16.Idx → EReal) = (m ((c : Thread nD τ).loc main_arg4) : S64x16.Idx → EReal) := by
  show StableHlo.after hostOps0 (fun b => m (c, b)) (Proc.devRef .tc main_v2) = _
  after_results
  rfl

/-- The window of Wc1 holds Wc1. -/
theorem V_v9 (c : Dev nD) :
    (V m c main_v9 : S64x64.Idx → EReal) = (m ((c : Thread nD τ).loc main_arg6) : S64x64.Idx → EReal) := by
  show StableHlo.after hostOps0 (fun b => m (c, b)) (Proc.devRef .tc main_v9) = _
  after_results
  rfl

/-- The window of Wc2 holds Wc2. -/
theorem V_v10 (c : Dev nD) :
    (V m c main_v10 : S64x64.Idx → EReal) = (m ((c : Thread nD τ).loc main_arg7) : S64x64.Idx → EReal) := by
  show StableHlo.after hostOps0 (fun b => m (c, b)) (Proc.devRef .tc main_v10) = _
  after_results
  rfl

/-- The window of Wc3 holds Wc3. -/
theorem V_v11 (c : Dev nD) :
    (V m c main_v11 : S64x3.Idx → EReal) = (m ((c : Thread nD τ).loc main_arg8) : S64x3.Idx → EReal) := by
  show StableHlo.after hostOps0 (fun b => m (c, b)) (Proc.devRef .tc main_v11) = _
  after_results
  rfl

/-- The slice of Wc0's rows 0 … 31, as the host computes it. -/
theorem V_v4_term (c : Dev nD) :
    (V m c main_v4 : S32x64.Idx → EReal)
      = extractStridedSlice S32x64 ![0, 0] (m ((c : Thread nD τ).loc main_arg5) : S47x64.Idx → EReal) slices_S47x64_S32x64_0_0 := by
  show StableHlo.after hostOps0 (fun b => m (c, b)) (Proc.devRef .tc main_v4) = _
  after_results
  rfl

/-- Read as a matrix, that window holds the first 32 rows of Wc0. -/
theorem V_v4 (c : Dev nD) :
    ofArr (V m c main_v4 : S32x64.Idx → EReal) = topRows (ofArr (m ((c : Thread nD τ).loc main_arg5) : S47x64.Idx → EReal)) := by
  rw [V_v4_term]
  generalize (m ((c : Thread nD τ).loc main_arg5) : S47x64.Idx → EReal) = W
  funext j k
  show extractStridedSlice S32x64 ![0, 0] W slices_S47x64_S32x64_0_0 (ix2 j k) = W (ix2 ⟨j.val, by have := j.isLt; omega⟩ k)
  exact extractStridedSlice_apply ![0, 0] W slices_S47x64_S32x64_0_0 (ix2 j k) (ix2 ⟨j.val, by have := j.isLt; omega⟩ k)
    (fun a => match a with
      | ⟨0, _⟩ => by show j.val = 0 + j.val; omega
      | ⟨1, _⟩ => by show k.val = 0 + k.val; omega)

/-- The zero row stacked on the slice of Wc0's rows 32 … 46, as the host computes it. -/
theorem V_v8_term (c : Dev nD) :
    (V m c main_v8 : S16x64.Idx → EReal)
      = concatenate S16x64 0 [⟨S1x64, broadcastInDim S1x64 ![] bcast_S_S1x64 (constant (F := Ideal) S_ .f32 0x00000000#32)⟩,
          ⟨S15x64, extractStridedSlice S15x64 ![32, 0] (m ((c : Thread nD τ).loc main_arg5) : S47x64.Idx → EReal) slices_S47x64_S15x64_32_0⟩]
          concatenates_S1x64_S15x64_S16x64_d0 := by
  show StableHlo.after hostOps0 (fun b => m (c, b)) (Proc.devRef .tc main_v8) = _
  after_results
  rfl

/-- Read as a matrix, that window holds a zero row and then rows 32 … 46 of Wc0. -/
theorem V_v8 (c : Dev nD) :
    ofArr (V m c main_v8 : S16x64.Idx → EReal) = zeroThenBottom (ofArr (m ((c : Thread nD τ).loc main_arg5) : S47x64.Idx → EReal)) := by
  rw [V_v8_term]
  generalize (m ((c : Thread nD τ).loc main_arg5) : S47x64.Idx → EReal) = W
  funext j k
  unfold ofArr zeroThenBottom
  by_cases h0 : j.val = 0
  · rw [dif_pos h0]
    refine (concatenate_pair_apply_left (t := S16x64) (s₁ := S1x64) (s₂ := S15x64) (0 : Fin 2) _ _ concatenates_S1x64_S15x64_S16x64_d0 (ix2 j k) rfl (ix2 (0 : Fin 1) k)
      (fun b => match b with
        | ⟨0, _⟩ => by show (0 : Nat) = j.val; omega
        | ⟨1, _⟩ => rfl)).trans ?_
    refine (broadcastInDim_apply _ bcast_S_S1x64 _ (ix2 (0 : Fin 1) k) ix0 (fun a => a.elim0)).trans ?_
    exact Ideal.ofBits_zero_f32
  · rw [dif_neg h0]
    have hj := j.isLt
    refine (concatenate_pair_apply_right (t := S16x64) (s₁ := S1x64) (s₂ := S15x64) (0 : Fin 2) _ _ concatenates_S1x64_S15x64_S16x64_d0 (ix2 j k) rfl rfl
      (ix2 (⟨j.val - 1, by omega⟩ : Fin 15) k)
      (fun b hb => match b, hb with
        | ⟨0, _⟩, hb => absurd rfl hb
        | ⟨1, _⟩, _ => rfl)
      (by show j.val - 1 + 1 = j.val; omega)).trans ?_
    exact extractStridedSlice_apply ![32, 0] W slices_S47x64_S15x64_32_0 (ix2 (⟨j.val - 1, by omega⟩ : Fin 15) k)
      (ix2 ⟨31 + j.val, by omega⟩ k)
      (fun a => match a with
        | ⟨0, _⟩ => by show 31 + j.val = 32 + (j.val - 1); omega
        | ⟨1, _⟩ => by show k.val = 0 + k.val; omega)

end Cert.KValue

end
-- ==== Proof.Tail.lean ====
/-
  The two results of the kernel's program.

  After the region the host takes rows 0 … 2 of the merged 4 × 1048576 array and transposes them — the colours,
  1048576 × 3 — and takes row 3 and drops its unit axis — the densities.  With the merged array known
  (`outArr`), the weight windows read back as the arguments (the pieces of the first colour weight as
  `topRows` and `zeroThenBottom`), and the split first contraction equal to the joined one, the two results are the
  specification's `colorArr` and `sigmaArr` of the argument arrays.
-/
import proofs.«180653_j72258529787990_2_alg».proof.Proof.Blocks
import proofs.«180653_j72258529787990_2_alg».proof.Proof.Prologue
import Idealize.ShloMosaic.Lib.StableHlo.Run

noncomputable section

namespace Cert.KValue

open Idealize.ShloMosaic Idealize.ShloMosaic.ValueIdx Idealize.ShloMosaic.TcCoe Idealize.SL.Sem
open Cert.KernelIdeal Cert.KernelIdeal.Gen Cert.Mlp

variable (m : (ℓ : Loc nD τ sig) → Buf (Elt Ideal) ℓ)

/-- The merged array after the run, in terms of the argument arrays. -/
theorem final_args (c : Dev nD) : (dats m 0 c).arrAt 10 cfg0.N
    = outArr (m ((c : Thread nD τ).loc main_arg0)) (m ((c : Thread nD τ).loc main_arg1)) (ofArr ((m ((c : Thread nD τ).loc main_arg2)) : S32x64.Idx → EReal)) (ofArr ((m ((c : Thread nD τ).loc main_arg3)) : S64x64.Idx → EReal))
        (ofArr ((m ((c : Thread nD τ).loc main_arg4)) : S64x16.Idx → EReal)) (topRows (ofArr ((m ((c : Thread nD τ).loc main_arg5)) : S47x64.Idx → EReal)))
        (zeroThenBottom (ofArr ((m ((c : Thread nD τ).loc main_arg5)) : S47x64.Idx → EReal))) (ofArr ((m ((c : Thread nD τ).loc main_arg6)) : S64x64.Idx → EReal))
        (ofArr ((m ((c : Thread nD τ).loc main_arg7)) : S64x64.Idx → EReal)) (ofArr ((m ((c : Thread nD τ).loc main_arg8)) : S64x3.Idx → EReal)) := by
  rw [final, V_v0, V_v1, V_v2, V_v4, V_v8, V_v9, V_v10, V_v11, V_main_arg0, V_main_arg1]

/-- The merged array as the lines after the region find it. -/
theorem tail_in (c : Dev nD) :
    Pipeline.withArrays (cfgs 0).spec c (V0 m c) (fun w => (dats m 0 c).arrAt w (cfgs 0).N) (Proc.devRef .tc main_v12)
      = outArr (m ((c : Thread nD τ).loc main_arg0)) (m ((c : Thread nD τ).loc main_arg1)) (ofArr ((m ((c : Thread nD τ).loc main_arg2)) : S32x64.Idx → EReal)) (ofArr ((m ((c : Thread nD τ).loc main_arg3)) : S64x64.Idx → EReal))
        (ofArr ((m ((c : Thread nD τ).loc main_arg4)) : S64x16.Idx → EReal)) (topRows (ofArr ((m ((c : Thread nD τ).loc main_arg5)) : S47x64.Idx → EReal)))
        (zeroThenBottom (ofArr ((m ((c : Thread nD τ).loc main_arg5)) : S47x64.Idx → EReal))) (ofArr ((m ((c : Thread nD τ).loc main_arg6)) : S64x64.Idx → EReal))
        (ofArr ((m ((c : Thread nD τ).loc main_arg7)) : S64x64.Idx → EReal)) (ofArr ((m ((c : Thread nD τ).loc main_arg8)) : S64x3.Idx → EReal)) :=
  (Pipeline.withArrays_arr spec0 launch0.win.arr_inj c _ _ 10).trans (final_args m c)

/-- Rows 0 … 2 of a merged array, transposed, are the colour array. -/
theorem colors_of_out (X D : S1048576x32.Idx → EReal) (A2 : S32x64.Idx → EReal) (A3 : S64x64.Idx → EReal) (A4 : S64x16.Idx → EReal)
    (A5 : S47x64.Idx → EReal) (A6 A7 : S64x64.Idx → EReal) (A8 : S64x3.Idx → EReal) :
    transpose S1048576x3 [1, 0] (extractStridedSlice S3x1048576 ![0, 0]
        (outArr X D (ofArr A2) (ofArr A3) (ofArr A4) (topRows (ofArr A5)) (zeroThenBottom (ofArr A5)) (ofArr A6) (ofArr A7) (ofArr A8))
        slices_S4x1048576_S3x1048576_0_0) transposes_S3x1048576_S1048576x3_1_0
      = colorArr X D A2 A3 A4 A5 A6 A7 A8 := by
  funext j
  obtain ⟨n, r, rfl⟩ : ∃ (n : Fin 1048576) (r : Fin 3), j = ix2 n r := ⟨j 0, j 1, eq_ix2 j⟩
  refine (transpose_apply [1, 0] _ transposes_S3x1048576_S1048576x3_1_0 (ix2 n r) (ix2 r n)
    (fun b => match b with
      | ⟨0, _⟩ => rfl
      | ⟨1, _⟩ => rfl)).trans ?_
  refine (extractStridedSlice_apply ![0, 0] _ slices_S4x1048576_S3x1048576_0_0 (ix2 r n) (ix2 (Fin.castSucc r) n)
    (fun a => match a with
      | ⟨0, _⟩ => by show r.val = 0 + r.val; omega
      | ⟨1, _⟩ => by show n.val = 0 + n.val; omega)).trans ?_
  rw [outArr_color, colorArr_ix2]
  unfold colorOut
  rw [headSplit_eq_headCat]

/-- Row 3 of a merged array, its unit axis dropped, is the density array. -/
theorem sigmas_of_out (X D : S1048576x32.Idx → EReal) (A2 : S32x64.Idx → EReal) (A3 : S64x64.Idx → EReal) (A4 : S64x16.Idx → EReal)
    (Ma : Mat 32 64) (Mb : Mat 16 64) (M7 M8 : Mat 64 64) (M9 : Mat 64 3) :
    shapeCast S1048576 (extractStridedSlice S1x1048576 ![3, 0]
        (outArr X D (ofArr A2) (ofArr A3) (ofArr A4) Ma Mb M7 M8 M9) slices_S4x1048576_S1x1048576_3_0) shapeCasts_S1x1048576_S1048576
      = sigmaArr X A2 A3 A4 := by
  funext j
  obtain ⟨n, rfl⟩ : ∃ n : Fin 1048576, j = ix1 n := ⟨j 0, eq_ix1 j⟩
  refine (shapeCast_apply _ shapeCasts_S1x1048576_S1048576 (ix1 n) (ix2 (0 : Fin 1) n)
    (by rewrite [Shape.rowMajor_val_two, Shape.rowMajor_val_one]; show 0 * 1048576 + n.val = n.val; omega)).trans ?_
  refine (extractStridedSlice_apply ![3, 0] _ slices_S4x1048576_S1x1048576_3_0 (ix2 (0 : Fin 1) n) (ix2 (3 : Fin 4) n)
    (fun a => match a with
      | ⟨0, _⟩ => by show 3 = 3 + 0; rfl
      | ⟨1, _⟩ => by show n.val = 0 + n.val; omega)).trans ?_
  rw [outArr_sigma, sigmaArr_ix1]

/-- The first result after the lines that follow the region: the colour array of the arguments. -/
theorem tail_color (c : Dev nD) :
    Pipeline.afterTail₀ cfgs (dats m) 0 (V0 m) [hostOps1] c main_v14
      = colorArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v14) = _
  after_results
  rw [tail_in]
  exact colors_of_out _ _ _ _ _ _ _ _ _

/-- The second result: the density array of the arguments. -/
theorem tail_sigma (c : Dev nD) :
    Pipeline.afterTail₀ cfgs (dats m) 0 (V0 m) [hostOps1] c main_v16
      = sigmaArr (m ((c : Thread nD τ).loc main_arg0)) (m ((c : Thread nD τ).loc main_arg2)) (m ((c : Thread nD τ).loc main_arg3)) (m ((c : Thread nD τ).loc main_arg4)) := by
  unfold Pipeline.afterTail₀
  show StableHlo.after hostOps1 _ (Proc.devRef .tc main_v16) = _
  after_results
  rw [tail_in]
  exact sigmas_of_out _ _ _ _ _ _ _ _ _ _

/-- The kernel's program, run: both results at the specification's arrays of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v14)
        = colorArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v16) = sigmaArr (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v14 (Pipeline.mem_restRefs_of main_v14 (by decide) (by decide))).trans (tail_color m c),
      ((h c).2 main_v16 (Pipeline.mem_restRefs_of main_v16 (by decide) (by decide))).trans (tail_sigma m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KValue

end
-- ==== Proof.RefSide.lean ====
/-
  The reference program's two results are the specification's arrays.

  The reference computes on whole arrays: a matrix product, then max(·, 0) against a zero splat, three times for the
  density network; the first column is the density, the other fifteen columns are joined to the direction array and go
  through four more products, and the last one through x ↦ 1 / (1 + e^(−x)).  Read at one entry (n, c), each product is
  the sum over the contracted position of row n of the left array times column c of the weight, so each stage's row n
  is the corresponding layer of the one-point network applied to row n of the arguments.  The joined array's row n is
  the direction row followed by entries 1 … 15 of the density network's row, which is the joined row of 47 of the
  specification.  The splat 0x00000000 denotes 0 and the splat 0x3F800000 denotes 1, so the last three stages spell the
  logistic function.
-/
import proofs.«180653_j72258529787990_2_alg».proof.Proof.Gen.ReferenceIdeal.Read
import proofs.«180653_j72258529787990_2_alg».proof.Proof.Spec
import proofs.«180653_j72258529787990_2_alg».proof.Proof.LibPlainProduct
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefSide

open Idealize.ShloMosaic Idealize.ShloMosaic.ValueIdx Cert.ReferenceIdeal Cert.ReferenceIdeal.Gen Cert.Mlp
open Cert.ReferenceIdeal.Read

/-- Two rank-2 indices are equal when their two coordinates are. -/
local macro "coords" : tactic =>
  `(tactic| exact funext fun a => Fin.ext (by match a with | ⟨0, _⟩ => rfl | ⟨1, _⟩ => rfl))

/-! ## The two literals: the pattern 0x00000000 denotes 0 and the pattern 0x3F800000 denotes 1 -/

/-- Each zero splat reads 0 everywhere. -/
theorem zero0 (i : S1048576x64.Idx) : val_main_call0_v0 (F := Ideal) i = 0 :=
  (val_main_call0_v0_apply i).trans ((val_main_call0_cst_apply _).trans Ideal.ofBits_zero_f32)
theorem zero1 (i : S1048576x64.Idx) : val_main_call1_v0 (F := Ideal) i = 0 :=
  (val_main_call1_v0_apply i).trans ((val_main_call1_cst_apply _).trans Ideal.ofBits_zero_f32)
theorem zero2 (i : S1048576x16.Idx) : val_main_call2_v0 (F := Ideal) i = 0 :=
  (val_main_call2_v0_apply i).trans ((val_main_call2_cst_apply _).trans Ideal.ofBits_zero_f32)
theorem zero3 (i : S1048576x64.Idx) : val_main_call3_v0 (F := Ideal) i = 0 :=
  (val_main_call3_v0_apply i).trans ((val_main_call3_cst_apply _).trans Ideal.ofBits_zero_f32)
theorem zero4 (i : S1048576x64.Idx) : val_main_call4_v0 (F := Ideal) i = 0 :=
  (val_main_call4_v0_apply i).trans ((val_main_call4_cst_apply _).trans Ideal.ofBits_zero_f32)
theorem zero5 (i : S1048576x64.Idx) : val_main_call5_v0 (F := Ideal) i = 0 :=
  (val_main_call5_v0_apply i).trans ((val_main_call5_cst_apply _).trans Ideal.ofBits_zero_f32)
/-- Each splat of 1.0 reads 1 everywhere. -/
theorem one19 (i : S1048576x3.Idx) : val_main_v19 (F := Ideal) i = 1 :=
  (val_main_v19_apply i).trans ((val_main_cst_apply _).trans Ideal.ofBits_one_f32)
theorem one21 (i : S1048576x3.Idx) : val_main_v21 (F := Ideal) i = 1 :=
  (val_main_v21_apply i).trans ((val_main_cst_0_apply _).trans Ideal.ofBits_one_f32)

/-- A product read at (n, c) whose left array's row n is the row `v`: the layer `lin v` at c. -/
theorem sum_row {N K M : Nat} (Y : (⟨2, ![N, K]⟩ : Shape).Idx → EReal) (W : (⟨2, ![K, M]⟩ : Shape).Idx → EReal)
    (v : Row K) (n : Fin N) (c : Fin M) (hY : ∀ k : Fin K, Y (ix2 n k) = v k) :
    ∑ k : Fin K, Y (ix2 n k) * W (ix2 k c) = lin v (ofArr W) c :=
  Finset.sum_congr rfl fun k _ => congrArg (· * W (ix2 k c)) (hY k)

/-! ## The density network, stage by stage, at row n -/

variable (x0 x1 : (⟨S1048576x32, .f32⟩ : BufTy).Contents (Elt Ideal)) (x2 : (⟨S32x64, .f32⟩ : BufTy).Contents (Elt Ideal))
  (x3 : (⟨S64x64, .f32⟩ : BufTy).Contents (Elt Ideal)) (x4 : (⟨S64x16, .f32⟩ : BufTy).Contents (Elt Ideal))
  (x5 : (⟨S47x64, .f32⟩ : BufTy).Contents (Elt Ideal)) (x6 x7 : (⟨S64x64, .f32⟩ : BufTy).Contents (Elt Ideal))
  (x8 : (⟨S64x3, .f32⟩ : BufTy).Contents (Elt Ideal))

theorem v1_at (n : Fin 1048576) (c : Fin 64) :
    val_main_v1 (F := Ideal) x0 x2 (ix2 n c) = relu (lin (rowOf x0 n) (ofArr x2)) c := by
  refine (val_main_v1_apply x0 x2 (ix2 n c)).trans ?_
  refine (congrArg₂ max (val_main_v0_apply x0 x2 (ix2 n c)) (zero0 (ix2 n c))).trans ?_
  refine congrArg (fun t => max t 0) ?_
  have el : ∀ k : Fin 32, lidx_main_v0 (ix2 n c) k = ix2 n k := fun k => by coords
  have er : ∀ k : Fin 32, ridx_main_v0 (ix2 n c) k = ix2 k c := fun k => by coords
  simp only [el, er]
  exact sum_row x0 x2 (rowOf x0 n) n c fun k => rfl

theorem v3_at (n : Fin 1048576) (c : Fin 64) :
    val_main_v3 (F := Ideal) x0 x2 x3 (ix2 n c) = relu (lin (relu (lin (rowOf x0 n) (ofArr x2))) (ofArr x3)) c := by
  refine (val_main_v3_apply x0 x2 x3 (ix2 n c)).trans ?_
  refine (congrArg₂ max (val_main_v2_apply x0 x2 x3 (ix2 n c)) (zero1 (ix2 n c))).trans ?_
  refine congrArg (fun t => max t 0) ?_
  have el : ∀ k : Fin 64, lidx_main_v2 (ix2 n c) k = ix2 n k := fun k => by coords
  have er : ∀ k : Fin 64, ridx_main_v2 (ix2 n c) k = ix2 k c := fun k => by coords
  simp only [el, er]
  exact sum_row _ x3 _ n c fun k => v1_at x0 x2 n k

theorem v5_at (n : Fin 1048576) (c : Fin 16) :
    val_main_v5 (F := Ideal) x0 x2 x3 x4 (ix2 n c) = sigmaNet (ofArr x2) (ofArr x3) (ofArr x4) (rowOf x0 n) c := by
  refine (val_main_v5_apply x0 x2 x3 x4 (ix2 n c)).trans ?_
  refine (congrArg₂ max (val_main_v4_apply x0 x2 x3 x4 (ix2 n c)) (zero2 (ix2 n c))).trans ?_
  refine congrArg (fun t => max t 0) ?_
  have el : ∀ k : Fin 64, lidx_main_v4 (ix2 n c) k = ix2 n k := fun k => by coords
  have er : ∀ k : Fin 64, ridx_main_v4 (ix2 n c) k = ix2 k c := fun k => by coords
  simp only [el, er]
  exact sum_row _ x4 _ n c fun k => v3_at x0 x2 x3 n k

/-- The density array: column 0 of the density network's rows. -/
theorem ref_sigma (x0 : (⟨S1048576x32, .f32⟩ : BufTy).Contents (Elt Ideal)) (x2 : (⟨S32x64, .f32⟩ : BufTy).Contents (Elt Ideal))
    (x3 : (⟨S64x64, .f32⟩ : BufTy).Contents (Elt Ideal)) (x4 : (⟨S64x16, .f32⟩ : BufTy).Contents (Elt Ideal)) :
    Cert.ReferenceIdeal.Read.val_main_v7 (F := Ideal) x0 x2 x3 x4 = sigmaArr x0 x2 x3 x4 := by
  funext j
  obtain ⟨n, rfl⟩ : ∃ n : Fin 1048576, j = ix1 n := ⟨j 0, eq_ix1 j⟩
  refine (val_main_v7_apply x0 x2 x3 x4 (ix1 n)).trans ?_
  refine (val_main_v6_apply x0 x2 x3 x4 _).trans ?_
  have e : idx_main_v6 (idx_main_v7 (ix1 n)) = ix2 n (0 : Fin 16) :=
    funext fun a => Fin.ext (by
      match a with
      | ⟨0, _⟩ => exact Nat.div_one n.val
      | ⟨1, _⟩ => rfl)
  rw [e, sigmaArr_ix1]
  exact v5_at x0 x2 x3 x4 n 0

/-! ## The joined array at row n -/

/-- Columns 1 … 15 of the density network's rows. -/
theorem v8_at (n : Fin 1048576) (q : Fin 15) :
    val_main_v8 (F := Ideal) x0 x2 x3 x4 (ix2 n q)
      = sigmaNet (ofArr x2) (ofArr x3) (ofArr x4) (rowOf x0 n) ⟨1 + q.val, by have := q.isLt; omega⟩ := by
  refine (val_main_v8_apply x0 x2 x3 x4 (ix2 n q)).trans ?_
  have e : idx_main_v8 (ix2 n q) = ix2 n (⟨1 + q.val, by have := q.isLt; omega⟩ : Fin 16) := by coords
  rw [e]
  exact v5_at x0 x2 x3 x4 n _

/-- Row n of the joined array is the direction row followed by entries 1 … 15 of the density network's row. -/
theorem v9_at (n : Fin 1048576) (k : Fin 47) :
    val_main_v9 (F := Ideal) x0 x1 x2 x3 x4 (ix2 n k)
      = catTail (rowOf x1 n) (sigmaNet (ofArr x2) (ofArr x3) (ofArr x4) (rowOf x0 n)) k := by
  unfold val_main_v9 catTail
  by_cases hk : k.val < 32
  · rw [dif_pos hk]
    exact concatenate_pair_apply_left (1 : Fin 2) x1 (val_main_v8 (F := Ideal) x0 x2 x3 x4)
      concatenates_S1048576x32_S1048576x15_S1048576x47_d1 (ix2 n k) rfl (ix2 n (⟨k.val, hk⟩ : Fin 32))
      (fun b => match b with | ⟨0, _⟩ => rfl | ⟨1, _⟩ => rfl)
  · rw [dif_neg hk]
    have hq : k.val - 32 < 15 := by have := k.isLt; omega
    refine (concatenate_pair_apply_right (1 : Fin 2) x1 (val_main_v8 (F := Ideal) x0 x2 x3 x4)
      concatenates_S1048576x32_S1048576x15_S1048576x47_d1 (ix2 n k) rfl rfl (ix2 n (⟨k.val - 32, hq⟩ : Fin 15))
      (fun b => match b with
        | ⟨0, _⟩ => fun _ => rfl
        | ⟨1, _⟩ => fun h => absurd rfl h)
      (by show k.val - 32 + 32 = k.val; omega)).trans ?_
    refine (v8_at x0 x2 x3 x4 n ⟨k.val - 32, hq⟩).trans ?_
    exact congrArg _ (Fin.ext (by show 1 + (k.val - 32) = k.val - 31; omega))

/-! ## The colour network, stage by stage, at row n -/

theorem v11_at (n : Fin 1048576) (c : Fin 64) :
    val_main_v11 (F := Ideal) x0 x1 x2 x3 x4 x5 (ix2 n c)
      = relu (headCat (ofArr x5) (rowOf x1 n) (sigmaNet (ofArr x2) (ofArr x3) (ofArr x4) (rowOf x0 n))) c := by
  refine (val_main_v11_apply x0 x1 x2 x3 x4 x5 (ix2 n c)).trans ?_
  refine (congrArg₂ max (val_main_v10_apply x0 x1 x2 x3 x4 x5 (ix2 n c)) (zero3 (ix2 n c))).trans ?_
  refine congrArg (fun t => max t 0) ?_
  have el : ∀ k : Fin 47, lidx_main_v10 (ix2 n c) k = ix2 n k := fun k => by coords
  have er : ∀ k : Fin 47, ridx_main_v10 (ix2 n c) k = ix2 k c := fun k => by coords
  simp only [el, er]
  exact sum_row _ x5 _ n c fun k => v9_at x0 x1 x2 x3 x4 n k

theorem v13_at (n : Fin 1048576) (c : Fin 64) :
    val_main_v13 (F := Ideal) x0 x1 x2 x3 x4 x5 x6 (ix2 n c)
      = relu (lin (relu (headCat (ofArr x5) (rowOf x1 n) (sigmaNet (ofArr x2) (ofArr x3) (ofArr x4) (rowOf x0 n))))
          (ofArr x6)) c := by
  refine (val_main_v13_apply x0 x1 x2 x3 x4 x5 x6 (ix2 n c)).trans ?_
  refine (congrArg₂ max (val_main_v12_apply x0 x1 x2 x3 x4 x5 x6 (ix2 n c)) (zero4 (ix2 n c))).trans ?_
  refine congrArg (fun t => max t 0) ?_
  have el : ∀ k : Fin 64, lidx_main_v12 (ix2 n c) k = ix2 n k := fun k => by coords
  have er : ∀ k : Fin 64, ridx_main_v12 (ix2 n c) k = ix2 k c := fun k => by coords
  simp only [el, er]
  exact sum_row _ x6 _ n c fun k => v11_at x0 x1 x2 x3 x4 x5 n k

theorem v15_at (n : Fin 1048576) (c : Fin 64) :
    val_main_v15 (F := Ideal) x0 x1 x2 x3 x4 x5 x6 x7 (ix2 n c)
      = relu (lin (relu (lin (relu (headCat (ofArr x5) (rowOf x1 n)
          (sigmaNet (ofArr x2) (ofArr x3) (ofArr x4) (rowOf x0 n)))) (ofArr x6))) (ofArr x7)) c := by
  refine (val_main_v15_apply x0 x1 x2 x3 x4 x5 x6 x7 (ix2 n c)).trans ?_
  refine (congrArg₂ max (val_main_v14_apply x0 x1 x2 x3 x4 x5 x6 x7 (ix2 n c)) (zero5 (ix2 n c))).trans ?_
  refine congrArg (fun t => max t 0) ?_
  have el : ∀ k : Fin 64, lidx_main_v14 (ix2 n c) k = ix2 n k := fun k => by coords
  have er : ∀ k : Fin 64, ridx_main_v14 (ix2 n c) k = ix2 k c := fun k => by coords
  simp only [el, er]
  exact sum_row _ x7 _ n c fun k => v13_at x0 x1 x2 x3 x4 x5 x6 n k

theorem v16_at (n : Fin 1048576) (c : Fin 3) :
    val_main_v16 (F := Ideal) x0 x1 x2 x3 x4 x5 x6 x7 x8 (ix2 n c)
      = lin (relu (lin (relu (lin (relu (headCat (ofArr x5) (rowOf x1 n)
          (sigmaNet (ofArr x2) (ofArr x3) (ofArr x4) (rowOf x0 n)))) (ofArr x6))) (ofArr x7))) (ofArr x8) c := by
  refine (val_main_v16_apply x0 x1 x2 x3 x4 x5 x6 x7 x8 (ix2 n c)).trans ?_
  have el : ∀ k : Fin 64, lidx_main_v16 (ix2 n c) k = ix2 n k := fun k => by coords
  have er : ∀ k : Fin 64, ridx_main_v16 (ix2 n c) k = ix2 k c := fun k => by coords
  simp only [el, er]
  exact sum_row _ x8 _ n c fun k => v15_at x0 x1 x2 x3 x4 x5 x6 x7 n k

/-- The colour array: negate, exponential, 1 + ·, 1 / · spell the logistic function of the last layer. -/
theorem ref_color (x0 x1 : (⟨S1048576x32, .f32⟩ : BufTy).Contents (Elt Ideal)) (x2 : (⟨S32x64, .f32⟩ : BufTy).Contents (Elt Ideal))
    (x3 : (⟨S64x64, .f32⟩ : BufTy).Contents (Elt Ideal)) (x4 : (⟨S64x16, .f32⟩ : BufTy).Contents (Elt Ideal))
    (x5 : (⟨S47x64, .f32⟩ : BufTy).Contents (Elt Ideal)) (x6 x7 : (⟨S64x64, .f32⟩ : BufTy).Contents (Elt Ideal))
    (x8 : (⟨S64x3, .f32⟩ : BufTy).Contents (Elt Ideal)) :
    Cert.ReferenceIdeal.Read.val_main_v22 (F := Ideal) x0 x1 x2 x3 x4 x5 x6 x7 x8 = colorArr x0 x1 x2 x3 x4 x5 x6 x7 x8 := by
  funext j
  obtain ⟨n, c, rfl⟩ : ∃ (n : Fin 1048576) (c : Fin 3), j = ix2 n c := ⟨j 0, j 1, eq_ix2 j⟩
  rw [colorArr_ix2]
  show Ideal.div (val_main_v21 (F := Ideal) (ix2 n c))
      (val_main_v19 (F := Ideal) (ix2 n c) + Ideal.exp (-(val_main_v16 (F := Ideal) x0 x1 x2 x3 x4 x5 x6 x7 x8 (ix2 n c)))) = _
  rw [one21, one19, v16_at]
  rfl

end Cert.RefSide

end
-- ==== Proof.lean ====
/-
  The certificate of the radiance-field kernel against its jnp reference.

  Both programs apply, to each of 1048576 sample points, a density network (three bias-free layers, max(·, 0) after
  each) and a colour network (four bias-free layers, max(·, 0) after the first three, the logistic function at the
  end) whose first layer acts on the direction joined with fifteen of the density network's outputs.  The kernel runs
  8192 points per grid step, writes colours and density into one merged 4 × 1048576 array which the host then splits,
  and computes the first colour layer as two products added, one of them against a weight with a zero row facing the
  density output; the reference contracts the joined row with the whole weight.

  At the ideal values (extended reals, exact operations, format changes the identity) both results are the
  specification's arrays `colorArr` and `sigmaArr` of the argument arrays (Proof/Spec.lean): the kernel's by
  Proof/Body.lean (the body's arithmetic at an entry), Proof/Blocks.lean (the blocks tile the merged array),
  Proof/Prologue.lean (what the weight windows hold) and Proof/Tail.lean (the host's split of the merged array, and
  the law `headSplit_eq_headCat`: the term facing the zero row vanishes, and a sum over 47 positions splits into 32 and
  15); the reference's by Proof/RefSide.lean.  The logistic function is by definition 1 / (1 + e^(−x)), which is what
  the reference spells.  No step needs the inputs finite.

  The three frames are the generated ones (the reference's is its generated run with the results dropped); the
  idealization rewrote nothing, so `preserves` is `True`.
-/
import proofs.«180653_j72258529787990_2_alg».proof.Defs
import proofs.«180653_j72258529787990_2_alg».proof.Proof.Gen.Kernel
import proofs.«180653_j72258529787990_2_alg».proof.Proof.Gen.Kernel.Skeleton
import proofs.«180653_j72258529787990_2_alg».proof.Proof.Gen.Kernel.Launch
import proofs.«180653_j72258529787990_2_alg».proof.Proof.Gen.Kernel.Points
import proofs.«180653_j72258529787990_2_alg».proof.Proof.Gen.Kernel.Frame
import proofs.«180653_j72258529787990_2_alg».proof.Proof.Gen.KernelIdeal
import proofs.«180653_j72258529787990_2_alg».proof.Proof.Gen.KernelIdeal.Skeleton
import proofs.«180653_j72258529787990_2_alg».proof.Proof.Gen.KernelIdeal.Launch
import proofs.«180653_j72258529787990_2_alg».proof.Proof.Gen.KernelIdeal.Points
import proofs.«180653_j72258529787990_2_alg».proof.Proof.Gen.KernelIdeal.Frame
import proofs.«180653_j72258529787990_2_alg».proof.Proof.Gen.ReferenceIdeal
import proofs.«180653_j72258529787990_2_alg».proof.Proof.Gen.Pre_finite_inputs
import proofs.«180653_j72258529787990_2_alg».proof.Proof.Gen.ReferenceIdeal.Run
import proofs.«180653_j72258529787990_2_alg».proof.Proof.Gen.ReferenceIdeal.Read
import proofs.«180653_j72258529787990_2_alg».proof.Proof.Tail
import proofs.«180653_j72258529787990_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, run from memories that agree on the arguments, end with the specification's colour and density
    arrays of those arguments. -/
theorem algebraic : Cert.algebraic_KernelIdeal_ReferenceIdeal := by
  intro m ρ m' ρ' _ hagree
  refine ⟨_, _, Cert.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v22_eq, Cert.RefSide.ref_color, (hagree c).1, (hagree c).2.1, (hagree c).2.2.1,
      (hagree c).2.2.2.1, (hagree c).2.2.2.2.1, (hagree c).2.2.2.2.2.1, (hagree c).2.2.2.2.2.2.1, (hagree c).2.2.2.2.2.2.2.1,
      (hagree c).2.2.2.2.2.2.2.2]
  · rw [Cert.ReferenceIdeal.Read.val_main_v7_eq, Cert.RefSide.ref_sigma, (hagree c).1, (hagree c).2.2.1, (hagree c).2.2.2.1,
      (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
